-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x512 : Shape := ⟨2, ![10000, 512]⟩
abbrev S10000x10000 : Shape := ⟨2, ![10000, 10000]⟩
abbrev S512x128 : Shape := ⟨2, ![512, 128]⟩
abbrev S128 : Shape := ⟨1, ![128]⟩
abbrev S128x128 : Shape := ⟨2, ![128, 128]⟩
abbrev S_ : Shape := ⟨0, ![]⟩

class Facts : Prop where
  bcast_S_S10000x512 : S_.BroadcastsInDim S10000x512 (![] : Fin 0 → Fin S10000x512.rank)
  reducesTo_S10000x512_S_d0_1 : S10000x512.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_arg4 : FVec F S128x128 .f32) (main_arg5 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S10000x512 .f32) (main_arg1 : FVec F S10000x10000 .f32) (main_arg2 : FVec F S512x128 .f32) (main_arg3 : FVec F S128 .f32) (main_arg4 : FVec F S128x128 .f32) (main_arg5 : FVec F S128 .f32) : IVec S_ 1 :=
  let main_v0 : FVec F S10000x512 .f32 := Host.absf main_arg0
  let main_cst : FVec F S_ .f32 := constant S_ .f32 0x7F800000#32
  let main_v1 : FVec F S10000x512 .f32 := broadcastInDim S10000x512 ![] bcast_S_S10000x512 main_cst
  let main_v2 : IVec S10000x512 1 := cmpf .olt main_v0 main_v1
  let main_c : IVec S_ 1 := constantI S_ 1 1#1
  let main_v3 : IVec S_ 1 := (fun x v => Host.reduce IntOp.andi x v reducesTo_S10000x512_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S512x128 .f32 := Host.absf main_arg2
  let main_cst_2 : FVec F S_ .f32 := constant S_ .f32 0x7F800000#32
  let main_v10 : FVec F S512x128 .f32 := broadcastInDim S512x128 ![] bcast_S_S512x128 main_cst_2
  let main_v11 : IVec S512x128 1 := cmpf .olt main_v9 main_v10
  let main_c_3 : IVec S_ 1 := constantI S_ 1 1#1
  let main_v12 : IVec S_ 1 := (fun x v => Host.reduce IntOp.andi x v reducesTo_S512x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_v13 main_v16
-- ==== Kernel.lean ====
abbrev S10000x512 : Shape := ⟨2, ![10000, 512]⟩
abbrev S10000x10000 : Shape := ⟨2, ![10000, 10000]⟩
abbrev S512x128 : Shape := ⟨2, ![512, 128]⟩
abbrev S128 : Shape := ⟨1, ![128]⟩
abbrev S128x128 : Shape := ⟨2, ![128, 128]⟩
abbrev S1x128 : Shape := ⟨2, ![1, 128]⟩
abbrev S10000x128 : Shape := ⟨2, ![10000, 128]⟩
abbrev S200x10000 : Shape := ⟨2, ![200, 10000]⟩
abbrev S200x128 : Shape := ⟨2, ![200, 128]⟩

abbrev nBuf : Space → Nat
  | .hbm => 9
  | .vmem => 11
  | .smem => 0
  | _ => 0

abbrev bufTy : (tb : Table) → Fin (tcTables nBuf tb) → BufTy
  | .hbm, ⟨0, _⟩ => ⟨S10000x512, .f32⟩
  | .hbm, ⟨1, _⟩ => ⟨S10000x10000, .f32⟩
  | .hbm, ⟨2, _⟩ => ⟨S512x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S1x128, .f32⟩
  | .hbm, ⟨7, _⟩ => ⟨S1x128, .f32⟩
  | .hbm, ⟨8, _⟩ => ⟨S10000x128, .f32⟩
  | .local _ .vmem, ⟨0, _⟩ => ⟨S10000x512, .f32⟩
  | .local _ .vmem, ⟨1, _⟩ => ⟨S200x10000, .f32⟩
  | .local _ .vmem, ⟨2, _⟩ => ⟨S200x10000, .f32⟩
  | .local _ .vmem, ⟨3, _⟩ => ⟨S512x128, .f32⟩
  | .local _ .vmem, ⟨4, _⟩ => ⟨S1x128, .f32⟩
  | .local _ .vmem, ⟨5, _⟩ => ⟨S128x128, .f32⟩
  | .local _ .vmem, ⟨6, _⟩ => ⟨S1x128, .f32⟩
  | .local _ .vmem, ⟨7, _⟩ => ⟨S200x128, .f32⟩
  | .local _ .vmem, ⟨8, _⟩ => ⟨S200x128, .f32⟩
  | .local _ .vmem, ⟨9, _⟩ => ⟨S10000x128, .f32⟩
  | .local _ .vmem, ⟨10, _⟩ => ⟨S10000x128, .f32⟩
  | _, _ => ⟨S10000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨2, ![2, 50], ![false, false]⟩

def k0_cond2 (i : grid0.Coords) : BitVec 1 :=
  let arg0 : BitVec 32 := BitVec.ofNat 32 (i 0).val
  let c0_i32_2 : BitVec 32 := 0#32
  let v5 : BitVec 1 := Scalar.cmpi .eq arg0 c0_i32_2
  let v6 : BitVec 32 := Scalar.extui v5
  let c0_i32_3 : BitVec 32 := 0#32
  let v7 : BitVec 1 := Scalar.cmpi .ne v6 c0_i32_3
  v7

def k0_off1 (i : grid0.Coords) : Fin 2 → Nat :=
  let arg1 : BitVec 32 := BitVec.ofNat 32 (i 1).val
  let c200_i32 : BitVec 32 := 200#32
  let v22 : BitVec 32 := Scalar.muli arg1 c200_i32
  let v23 : Index := Scalar.indexCast v22
  let c0_14 : Index := 0#32
  ![v23.toNat, 0]
def k0_cond3 (i : grid0.Coords) : BitVec 1 :=
  let arg0 : BitVec 32 := BitVec.ofNat 32 (i 0).val
  let c1_i32 : BitVec 32 := 1#32
  let v8 : BitVec 1 := Scalar.cmpi .eq arg0 c1_i32
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 c0_i32_0 arg1
  let c0_i32_1 : BitVec 32 := 0#32
  let c0_i32_2 : BitVec 32 := 0#32
  ![v1.toNat, c0_i32_1.toNat]

abbrev stage0_0 : Fin 1 → Memref sig .tc .vmem S10000x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S200x10000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S512x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S200x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

class Facts₀ : Prop where
  shapeCasts_S128_S1x128 : S128.ShapeCasts S1x128
  inb_S10000x512_S10000x512_0_0 : ∀ a, (![0, 0] : Fin 2 → Nat) a + S10000x512.size a ≤ S10000x512.size a
  h_S10000x512 : 0 < S10000x512.numel
  inb_S512x128_S512x128_0_0 : ∀ a, (![0, 0] : Fin 2 → Nat) a + S512x128.size a ≤ S512x128.size a
  h_S512x128 : 0 < S512x128.numel
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S200x10000_S200x10000_0_0 : ∀ a, (![0, 0] : Fin 2 → Nat) a + S200x10000.size a ≤ S200x10000.size a
  h_S200x10000 : 0 < S200x10000.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S200x128 : S1x128.Broadcasts S200x128
  inb_S128x128_S128x128_0_0 : ∀ a, (![0, 0] : Fin 2 → Nat) a + S128x128.size a ≤ S128x128.size a
  h_S128x128 : 0 < S128x128.numel
  h_S200x128 : 0 < S200x128.numel
  shapeCasts_S200x128_S200x128 : S200x128.ShapeCasts S200x128
  inb_S200x128_S200x128_0_0 : ∀ a, (![0, 0] : Fin 2 → Nat) a + S200x128.size a ≤ S200x128.size a
  dot_S10000x512_S512x128_S10000x128_1_0_0_1_n_n_wf : DotDims.WF S10000x512 S512x128 S10000x128 [1] [0] [0] [1] [] []
  dot_S200x10000_S10000x128_S200x128_1_0_0_1_n_n_wf : DotDims.WF S200x10000 S10000x128 S200x128 [1] [0] [0] [1] [] []
  dot_S200x128_S128x128_S200x128_1_0_0_1_n_n_wf : DotDims.WF S200x128 S128x128 S200x128 [1] [0] [0] [1] [] []
  hrank0 : 0 < grid0.rank
  k0_off1_inb : ∀ i : grid0.Coords, ∀ (k0_h2 : k0_cond2 i = 1#1), ∀ a, (k0_off1 i) a + S200x128.size a ≤ S10000x128.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x512.size a ≤ S10000x512.size a
  hwx0_0 : ∀ i : grid0.Coords, EltTy.bits .f32 = 32 ∨ (Rect.block (s := S10000x512) S10000x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S200x10000.size a ≤ S10000x10000.size a
  hwx0_1 : ∀ i : grid0.Coords, EltTy.bits .f32 = 32 ∨ (Rect.block (s := S10000x10000) S200x10000.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x128.size a ≤ S512x128.size a
  hwx0_2 : ∀ i : grid0.Coords, EltTy.bits .f32 = 32 ∨ (Rect.block (s := S512x128) S512x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S200x128.size a ≤ S10000x128.size a
  hwx0_6 : ∀ i : grid0.Coords, EltTy.bits .f32 = 32 ∨ (Rect.block (s := S10000x128) S200x128.size (cc0_transform_6 i) (hinb0_6 i)).WholeWords (EltTy.packing .f32)

variable [Facts₀]

def dot_S10000x512_S512x128_S10000x128_1_0_0_1_n_n : DotDims S10000x512 S512x128 S10000x128 where
  lhsContracting := [1]
  rhsContracting := [0]
  lhsNonContracting := [0]
  rhsNonContracting := [1]
  lhsBatch := []
  rhsBatch := []
  wf := dot_S10000x512_S512x128_S10000x128_1_0_0_1_n_n_wf
def dot_S200x10000_S10000x128_S200x128_1_0_0_1_n_n : DotDims S200x10000 S10000x128 S200x128 where
  lhsContracting := [1]
  rhsContracting := [0]
  lhsNonContracting := [0]
  rhsNonContracting := [1]
  lhsBatch := []
  rhsBatch := []
  wf := dot_S200x10000_S10000x128_S200x128_1_0_0_1_n_n_wf
def dot_S200x128_S128x128_S200x128_1_0_0_1_n_n : DotDims S200x128 S128x128 S200x128 where
  lhsContracting := [1]
  rhsContracting := [0]
  lhsNonContracting := [0]
  rhsNonContracting := [1]
  lhsBatch := []
  rhsBatch := []
  wf := dot_S200x128_S128x128_S200x128_1_0_0_1_n_n_wf

abbrev win0_0 : Pipeline.Window sig grid0 :=
  Pipeline.Window.ofSpec (Memref.whole main_arg0) S10000x512.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S200x10000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S200x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond3 i == 1#1) | ⟨_ + 7, h⟩ => absurd h (Nat.not_lt.2 (Nat.le_add_left _ _))

class Facts : Prop extends Facts₀ where

variable [Facts]
-- ==== ReferenceIdeal.lean ====
abbrev S10000x512 : Shape := ⟨2, ![10000, 512]⟩
abbrev S10000x10000 : Shape := ⟨2, ![10000, 10000]⟩
abbrev S512x128 : Shape := ⟨2, ![512, 128]⟩
abbrev S128 : Shape := ⟨1, ![128]⟩
abbrev S128x128 : Shape := ⟨2, ![128, 128]⟩
abbrev S10000x128 : Shape := ⟨2, ![10000, 128]⟩
abbrev S1x128 : Shape := ⟨2, ![1, 128]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S10000x512, .f32⟩
  | .hbm, ⟨1, _⟩ => ⟨S10000x10000, .f32⟩
  | .hbm, ⟨2, _⟩ => ⟨S512x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S10000x128, .f32⟩
  | .hbm, ⟨7, _⟩ => ⟨S10000x128, .f32⟩
  | .hbm, ⟨8, _⟩ => ⟨S1x128, .f32⟩
  | .hbm, ⟨9, _⟩ => ⟨S10000x128, .f32⟩
  | .hbm, ⟨10, _⟩ => ⟨S10000x128, .f32⟩
  | .hbm, ⟨11, _⟩ => ⟨S_, .f32⟩
  | .hbm, ⟨12, _⟩ => ⟨S10000x128, .f32⟩
  | .hbm, ⟨13, _⟩ => ⟨S10000x128, .f32⟩
  | .hbm, ⟨14, _⟩ => ⟨S10000x128, .f32⟩
  | .hbm, ⟨15, _⟩ => ⟨S10000x128, .f32⟩
  | .hbm, ⟨16, _⟩ => ⟨S1x128, .f32⟩
  | .hbm, ⟨17, _⟩ => ⟨S10000x128, .f32⟩
  | .hbm, ⟨18, _⟩ => ⟨S10000x128, .f32⟩
  | _, _ => ⟨S10000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_cst : Ref sig .tc := ⟨.hbm, 11, rfl⟩
abbrev main_call0_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  dot_S10000x512_S512x128_S10000x128_1_0_0_1_n_n_wf : DotDims.WF S10000x512 S512x128 S10000x128 [1] [0] [0] [1] [] []
  dot_S10000x10000_S10000x128_S10000x128_1_0_0_1_n_n_wf : DotDims.WF S10000x10000 S10000x128 S10000x128 [1] [0] [0] [1] [] []
  dot_S10000x128_S128x128_S10000x128_1_0_0_1_n_n_wf : DotDims.WF S10000x128 S128x128 S10000x128 [1] [0] [0] [1] [] []

variable [Facts₀]

def dot_S10000x512_S512x128_S10000x128_1_0_0_1_n_n : DotDims S10000x512 S512x128 S10000x128 where
  lhsContracting := [1]
  rhsContracting := [0]
  lhsNonContracting := [0]
  rhsNonContracting := [1]
  lhsBatch := []
  rhsBatch := []
  wf := dot_S10000x512_S512x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf

class Facts : Prop extends Facts₀ where

variable [Facts]
-- ==== Proof.Kernel.Grid.lean ====
import proofs.«162649_g34110630265430_cont_sun_c4_604_4_alg».proof.Proof.Gen.Kernel.Frame
import proofs.«162649_g34110630265430_cont_sun_c4_604_4_alg».proof.Proof.Gen.Kernel.Skeleton
import Idealize.ShloMosaic.Lib.Pipeline.Value
import Idealize.ShloMosaic.Lib.ValueIdx
import Idealize.ShloMosaic.Lib.WritesUnit

set_option maxRecDepth 16384

noncomputable section

/-! The grid of the one region has 100 points, read as two sweeps of 50 row blocks: the first sweep (points 0–49)
fills the hidden layer's projection 200 rows at a time, the second (points 50–99) multiplies the adjacency block by it.
This module decides, once over the grid, which of the body's three conditionals a point takes, where the slice a
first-sweep point stores sits, and when the result window rests and when it is written back. -/

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The body's first conditional: both grid coordinates are zero. -/
abbrev firstPoint (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1

/-- Only point 0 has both coordinates zero. -/
theorem firstPoint_iff : ∀ t : Fin cfg0.N, firstPoint (grid0.coords t) ↔ t.val = 0 :=
  (by decide +kernel : ∀ t : Fin grid0.N, firstPoint (grid0.coords t) ↔ t.val = 0)

/-- The first sweep is the points below 50. -/
theorem sweep1_iff : ∀ t : Fin cfg0.N, k0_cond2 (grid0.coords t) = 1#1 ↔ t.val < 50 :=
  (by decide +kernel : ∀ t : Fin grid0.N, k0_cond2 (grid0.coords t) = 1#1 ↔ t.val < 50)

/-- The second sweep is the points from 50 on. -/
theorem sweep2_iff : ∀ t : Fin cfg0.N, k0_cond3 (grid0.coords t) = 1#1 ↔ 50 ≤ t.val :=
  (by decide +kernel : ∀ t : Fin grid0.N, k0_cond3 (grid0.coords t) = 1#1 ↔ 50 ≤ t.val)

/-- The slice a point stores into the second scratch starts at row 200 · (t mod 50), column 0. -/
theorem sliceOff_eq : ∀ t : Fin cfg0.N, k0_off1 (grid0.coords t) = ![200 * (t.val % 50), 0] :=
  (by decide +kernel : ∀ t : Fin grid0.N, k0_off1 (grid0.coords t) = ![200 * (t.val % 50), 0])

/-- The input windows never rest. -/
theorem live_0 : ∀ t : Fin cfg0.N, cfg0.idle 0 (grid0.coords t) = false := by decide +kernel
theorem live_1 : ∀ t : Fin cfg0.N, cfg0.idle 1 (grid0.coords t) = false := by decide +kernel
theorem live_2 : ∀ t : Fin cfg0.N, cfg0.idle 2 (grid0.coords t) = false := by decide +kernel
theorem live_3 : ∀ t : Fin cfg0.N, cfg0.idle 3 (grid0.coords t) = false := by decide +kernel
theorem live_4 : ∀ t : Fin cfg0.N, cfg0.idle 4 (grid0.coords t) = false := by decide +kernel
theorem live_5 : ∀ t : Fin cfg0.N, cfg0.idle 5 (grid0.coords t) = false := by decide +kernel

/-- The result window rests through the first sweep, -/
theorem rest_6 : ∀ t : Fin cfg0.N, cfg0.idle 6 (grid0.coords t) = decide (t.val < 50) :=
  (by decide +kernel : ∀ t : Fin grid0.N, cfg0.idle 6 (grid0.coords t) = decide (t.val < 50))

/-- and is written back after every point of the second sweep and after none of the first. -/
theorem flush_6 : ∀ t : Fin cfg0.N, (cfg0.win 6).flush t = decide (50 ≤ t.val) :=
  (by decide +kernel : ∀ t : Fin grid0.N, win0_6.flush t = decide (50 ≤ t.val))

/-- The block of the result a second-sweep point writes back is row block t − 50; it is never fetched. -/
theorem index_6 : ∀ t : Fin cfg0.N, 50 ≤ t.val → win0_6.index t (0 : Fin 2) = t.val - 50 ∧ win0_6.index t (1 : Fin 2) = 0 :=
  (by decide +kernel : ∀ t : Fin grid0.N, 50 ≤ t.val → win0_6.index t (0 : Fin 2) = t.val - 50 ∧ win0_6.index t (1 : Fin 2) = 0)

theorem fetch_6 : ∀ t : Fin cfg0.N, (cfg0.win 6).fetch t = false :=
  (by decide +kernel : ∀ t : Fin grid0.N, win0_6.fetch t = false)

/-- The adjacency window's block at a point is row block t mod 50, all columns; the other inputs' blocks are whole arrays. -/
theorem index_1 : ∀ t : Fin cfg0.N, win0_1.index t (0 : Fin 2) = t.val % 50 ∧ win0_1.index t (1 : Fin 2) = 0 :=
  (by decide +kernel : ∀ t : Fin grid0.N, win0_1.index t (0 : Fin 2) = t.val % 50 ∧ win0_1.index t (1 : Fin 2) = 0)
theorem index_0 : ∀ t : Fin cfg0.N, win0_0.index t (0 : Fin 2) = 0 ∧ win0_0.index t (1 : Fin 2) = 0 :=
  (by decide +kernel : ∀ t : Fin grid0.N, win0_0.index t (0 : Fin 2) = 0 ∧ win0_0.index t (1 : Fin 2) = 0)
theorem index_2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)
theorem index_3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)
theorem index_4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)
theorem index_5 : ∀ t : Fin cfg0.N, win0_5.index t (0 : Fin 2) = 0 ∧ win0_5.index t (1 : Fin 2) = 0 :=
  (by decide +kernel : ∀ t : Fin grid0.N, win0_5.index t (0 : Fin 2) = 0 ∧ win0_5.index t (1 : Fin 2) = 0)

/-- Offsets zero on both axes, as the printed rectangles spell them. -/
theorem zero2 : (![0, 0] : Fin 2 → ℕ) = fun _ => 0 := by funext a; fin_cases a <;> rfl

/-- One store through the whole shape leaves its payload, whatever the buffer held. -/
theorem read_store_whole {S : Shape} {κ : Kind} {sp : Space} {e : EltTy} (v : View sig κ sp S e) (f : v.ty.Contents (Elt F))
    {off : Fin S.rank → ℕ} (h : off = fun _ => 0) (inb : ∀ a, off a + S.size a ≤ S.size a) (w : S.Idx → Elt F e) :
    v.read (Elt F) (v.writes (Elt F) f [(⟨Rect.unit off S.size inb, w⟩ : View.Piece (Elt F) S e)]) = w :=
  (View.read_writes_eq_canon v f _ (fun y => ⟨_, List.mem_singleton_self _, View.mem_set_unit_zero h inb y⟩)).trans
    (View.canon_unit_zero h inb w)

/-- The second scratch after a first-sweep point: the 200 rows the point computes (`w`) written at the point's slice
    over what the scratch held (`g`). -/
def withSlice (arg10 : Memref sig .tc .vmem S10000x128 .f32) (harg10 : arg10.IsWhole) (i : grid0.Coords) (h : k0_cond2 i = 1#1)
    (g : Vec F S10000x128 .f32) (w : Vec F S200x128 .f32) : Vec F S10000x128 .f32 :=
  arg10.view.read (Elt F) (arg10.view.writes (Elt F) (harg10.unread g)
    [(⟨Rect.unit (s := S10000x128) (k0_off1 i) S200x128.size (Cert.Kernel.Gen.k0_off1_inb i h), w⟩ : View.Piece (Elt F) S10000x128 .f32)])

end Cert.Kernel.Body

end
-- ==== Proof.Kernel.RunFirst.lean ====
import proofs.«162649_g34110630265430_cont_sun_c4_604_4_alg».proof.Proof.Kernel.Grid

set_option maxRecDepth 16384

noncomputable section

/-! The body at the first point: z = x · W1 stored whole into the first scratch, read back, and the first 200 rows of
relu(adjacency block · z + b1) · W2 stored at the point's slice of the second scratch. -/

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- At the first point the body leaves the inputs and the result's buffer as it found them, the first scratch at `x · W1`
    (the skeleton's first payload) whatever it held, and the second scratch with the point's 200 rows, computed from that
    product, written over what it held. -/
theorem run_first (c : Dev nD) (i : grid0.Coords) (arg2 : Memref sig .tc .vmem S10000x512 .f32) (harg2 : arg2.IsWhole) (arg3 : Memref sig .tc .vmem S200x10000 .f32) (harg3 : arg3.IsWhole) (arg4 : Memref sig .tc .vmem S512x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S200x128 .f32) (harg8 : arg8.IsWhole) (arg9 : Memref sig .tc .vmem S10000x128 .f32) (harg9 : arg9.IsWhole) (arg10 : Memref sig .tc .vmem S10000x128 .f32) (harg10 : arg10.IsWhole)
    (hc0 : firstPoint i) (hc1 : k0_cond2 i = 1#1) (hc2 : ¬k0_cond3 i = 1#1)
    (x0 : Vec F S10000x512 .f32) (x1 : Vec F S200x10000 .f32) (x2 : Vec F S512x128 .f32) (x3 : Vec F S1x128 .f32) (x4 : Vec F S128x128 .f32) (x5 : Vec F S1x128 .f32) (x6 : Vec F S200x128 .f32) (z g : Vec F S10000x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare z ∗ owns (c : Thread nD τ) arg10 fullShare g
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (k0_pay1 x0 x2) ∗ owns (c : Thread nD τ) arg10 fullShare (withSlice arg10 harg10 i hc1 g (k0_pay2 x1 (k0_pay1 x0 x2) x3 x4))) -∗ K ⟨⟩))
      ⊢ wp frame (wpE (defs₀ (F := F)) Variants.none c none) E (cc0__fused i arg2 harg2 arg3 harg3 arg4 harg4 arg5 harg5 arg6 harg6 arg7 harg7 arg8 harg8 arg9 harg9 arg10 harg10) K := by
  simp only [cc0__fused_eq_skeleton]; unfold cc0__fused_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5
  obtain rfl := harg8.eq_unread hf6; obtain rfl := harg9.eq_unread hfs0; obtain rfl := harg10.eq_unread hfs1
  clear hf0 hf1 hf2 hf3 hf4 hf5 hf6 hfs0 hfs1
  sl_exec (disch := first | exact hc0 | exact hc1 | exact hc2)
  sl_step
  sl_unfold_words
  simp only [View.readAt_eq_ld, harg2.read_unread, harg3.read_unread, harg4.read_unread, harg5.read_unread, harg6.read_unread,
    View.ld_unit_zero (S := S10000x512) zero2, View.ld_unit_zero (S := S512x128) zero2,
    View.ld_unit_zero (S := S200x10000) zero2, View.ld_unit_zero (S := S1x128) zero2, View.ld_unit_zero (S := S128x128) zero2,
    View.readCov_unit_zero (S := S10000x128) _ zero2]
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [HS0]
  · iexists _; isplitr; swap; · iexact HS0
    ipureintro; exact read_store_whole _ _ zero2 _ _
  iexists _; isplitr; swap; · iexact HS1
  ipureintro; rfl

end Cert.Kernel.Body

end
-- ==== Proof.Kernel.RunFill.lean ====
import proofs.«162649_g34110630265430_cont_sun_c4_604_4_alg».proof.Proof.Kernel.Grid

set_option maxRecDepth 16384

noncomputable section

/-! The body at a point of the first sweep other than the first: relu(adjacency block · z + b1) · W2, 200 rows, stored at
the point's slice of the second scratch; the first scratch (z) is only read and the result's buffer is not touched. -/

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- At such a point the body leaves the inputs, the result's buffer and the first scratch as it found them, and the second
    scratch with the point's 200 rows (the skeleton's second payload) written over what it held. -/
theorem run_fill (c : Dev nD) (i : grid0.Coords) (arg2 : Memref sig .tc .vmem S10000x512 .f32) (harg2 : arg2.IsWhole) (arg3 : Memref sig .tc .vmem S200x10000 .f32) (harg3 : arg3.IsWhole) (arg4 : Memref sig .tc .vmem S512x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S200x128 .f32) (harg8 : arg8.IsWhole) (arg9 : Memref sig .tc .vmem S10000x128 .f32) (harg9 : arg9.IsWhole) (arg10 : Memref sig .tc .vmem S10000x128 .f32) (harg10 : arg10.IsWhole)
    (hc0 : ¬firstPoint i) (hc1 : k0_cond2 i = 1#1) (hc2 : ¬k0_cond3 i = 1#1)
    (x0 : Vec F S10000x512 .f32) (x1 : Vec F S200x10000 .f32) (x2 : Vec F S512x128 .f32) (x3 : Vec F S1x128 .f32) (x4 : Vec F S128x128 .f32) (x5 : Vec F S1x128 .f32) (x6 : Vec F S200x128 .f32) (z g : Vec F S10000x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare z ∗ owns (c : Thread nD τ) arg10 fullShare g
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare z ∗ owns (c : Thread nD τ) arg10 fullShare (withSlice arg10 harg10 i hc1 g (k0_pay2 x1 z x3 x4))) -∗ K ⟨⟩))
      ⊢ wp frame (wpE (defs₀ (F := F)) Variants.none c none) E (cc0__fused i arg2 harg2 arg3 harg3 arg4 harg4 arg5 harg5 arg6 harg6 arg7 harg7 arg8 harg8 arg9 harg9 arg10 harg10) K := by
  simp only [cc0__fused_eq_skeleton]; unfold cc0__fused_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5
  obtain rfl := harg8.eq_unread hf6; obtain rfl := harg9.eq_unread hfs0; obtain rfl := harg10.eq_unread hfs1
  clear hf0 hf1 hf2 hf3 hf4 hf5 hf6 hfs0 hfs1
  sl_exec (disch := first | exact hc0 | exact hc1 | exact hc2)
  sl_step
  simp only [View.readAt_eq_ld, harg3.read_unread, harg5.read_unread, harg6.read_unread, harg9.read_unread,
    View.ld_unit_zero (S := S200x10000) zero2, View.ld_unit_zero (S := S1x128) zero2, View.ld_unit_zero (S := S128x128) zero2,
    View.ld_unit_zero (S := S10000x128) zero2]
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [HS0]
  · iexists _; isplitr; · ipureintro; exact harg9.read_unread _
    iexact HS0
  iexists _; isplitr; swap; · iexact HS1
  ipureintro; rfl

end Cert.Kernel.Body

end
-- ==== Proof.Kernel.RunOut.lean ====
import proofs.«162649_g34110630265430_cont_sun_c4_604_4_alg».proof.Proof.Kernel.Grid

set_option maxRecDepth 16384

noncomputable section

/-! The body at a point of the second sweep: the adjacency block times the finished projection, plus the second bias,
stored whole into the result's buffer; both scratch buffers are only read. -/

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- At a second-sweep point the body leaves the inputs and both scratch buffers as it found them and the result's buffer at
    `adj-block · g + b2` (the skeleton's third payload), whatever that buffer held. -/
theorem run_out (c : Dev nD) (i : grid0.Coords) (arg2 : Memref sig .tc .vmem S10000x512 .f32) (harg2 : arg2.IsWhole) (arg3 : Memref sig .tc .vmem S200x10000 .f32) (harg3 : arg3.IsWhole) (arg4 : Memref sig .tc .vmem S512x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S200x128 .f32) (harg8 : arg8.IsWhole) (arg9 : Memref sig .tc .vmem S10000x128 .f32) (harg9 : arg9.IsWhole) (arg10 : Memref sig .tc .vmem S10000x128 .f32) (harg10 : arg10.IsWhole)
    (hc0 : ¬firstPoint i) (hc1 : ¬k0_cond2 i = 1#1) (hc2 : k0_cond3 i = 1#1)
    (x0 : Vec F S10000x512 .f32) (x1 : Vec F S200x10000 .f32) (x2 : Vec F S512x128 .f32) (x3 : Vec F S1x128 .f32) (x4 : Vec F S128x128 .f32) (x5 : Vec F S1x128 .f32) (x6 : Vec F S200x128 .f32) (z g : Vec F S10000x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare z ∗ owns (c : Thread nD τ) arg10 fullShare g
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (k0_pay3 x1 g x5) ∗ owns (c : Thread nD τ) arg9 fullShare z ∗ owns (c : Thread nD τ) arg10 fullShare g) -∗ K ⟨⟩))
      ⊢ wp frame (wpE (defs₀ (F := F)) Variants.none c none) E (cc0__fused i arg2 harg2 arg3 harg3 arg4 harg4 arg5 harg5 arg6 harg6 arg7 harg7 arg8 harg8 arg9 harg9 arg10 harg10) K := by
  simp only [cc0__fused_eq_skeleton]; unfold cc0__fused_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5
  obtain rfl := harg8.eq_unread hf6; obtain rfl := harg9.eq_unread hfs0; obtain rfl := harg10.eq_unread hfs1
  clear hf0 hf1 hf2 hf3 hf4 hf5 hf6 hfs0 hfs1
  sl_exec (disch := first | exact hc0 | exact hc1 | exact hc2)
  sl_step
  simp only [View.readAt_eq_ld, harg3.read_unread, harg7.read_unread, harg10.read_unread,
    View.ld_unit_zero (S := S200x10000) zero2, View.ld_unit_zero (S := S1x128) zero2, View.ld_unit_zero (S := S10000x128) zero2]
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; swap; · iexact H6
    ipureintro; exact read_store_whole _ _ zero2 _ _
  isplitl [HS0]
  · iexists _; isplitr; · ipureintro; exact harg9.read_unread _
    iexact HS0
  iexists _; isplitr; · ipureintro; exact harg10.read_unread _
  iexact HS1

end Cert.Kernel.Body

end
-- ==== Proof.Kernel.Body.lean ====
import proofs.«162649_g34110630265430_cont_sun_c4_604_4_alg».proof.Proof.Kernel.RunFirst
import proofs.«162649_g34110630265430_cont_sun_c4_604_4_alg».proof.Proof.Kernel.RunFill
import proofs.«162649_g34110630265430_cont_sun_c4_604_4_alg».proof.Proof.Kernel.RunOut

set_option maxRecDepth 16384

noncomputable section

/-! The proof data of the one region and its body obligation.

Between points the kernel keeps two scratch arrays: z = x · W1, computed whole at point 0, and g, whose row block s
(rows 200·s … 200·s + 199) is stored by first-sweep point s as relu(adj-block s · z + b1) · W2. What g held before the
region is unknown, so the invariant after point n says: z is exact, and g is SOME array that agrees with the fully
assembled `gFull` on the rows below 200·(n+1). From point 49 on that is every row, so the second sweep reads `gFull` itself
and leaves adj-block · gFull + b2 in the result's buffer, which is written back after each of its points. -/

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The two scratch operands as whole memrefs. -/
abbrev scrZ : Memref sig .tc .vmem S10000x128 .f32 := Memref.whole cc0_scratch0
abbrev scrG : Memref sig .tc .vmem S10000x128 .f32 := Memref.whole cc0_scratch1

/-- What the launch hands the region beyond the windows: both scratch arrays at some contents and the generator register. -/
theorem launchInv_eq (c : Dev nD) :
    (Pipeline.ΦA spec0 c : sProp 𝕄)
      = iprop(iprop((∃ d, owns (c : Thread nD τ) scrZ fullShare d) ∗ (∃ d, owns (c : Thread nD τ) scrG fullShare d)) ∗ (∃ r, prngReg c r)) := by
  unfold Pipeline.ΦA; rw [scopedRest0_eq]; simp only [scrZ, scrG, owns_whole]; try rfl

theorem N_eq : cfg0.N = 100 := N_0

/-- Point 0. -/
def t0 : Fin cfg0.N := ⟨0, by rw [N_eq]; omega⟩

/-- z = x · W1, from the (whole-array) blocks of x and W1 at point 0. -/
def zOf (c : Dev nD) : Vec F S10000x128 .f32 := k0_pay1 (iblk m c 0 t0) (iblk m c 2 t0)

/-- The 200 rows point `t` computes: relu(adj-block t · z + b1) · W2. -/
def sliceOf (c : Dev nD) (t : Fin cfg0.N) : Vec F S200x128 .f32 :=
  k0_pay2 (iblk m c 1 t) (zOf m c) (iblk m c 3 t) (iblk m c 4 t)

/-- The row block a row of g lies in, as a grid point of the first sweep, -/
def blockOfRow (y : S10000x128.Idx) : Fin cfg0.N :=
  ⟨(y 0).val / 200, by have h : (y 0).val < 10000 := ValueIdx.idx2_lt0 y; rw [N_eq]; omega⟩

/-- and its position inside that block. -/
def rowIn (y : S10000x128.Idx) : S200x128.Idx :=
  ValueIdx.ix2 (⟨(y 0).val % 200, Nat.mod_lt _ (by omega)⟩ : Fin 200) (⟨(y 1).val, ValueIdx.idx2_lt1 y⟩ : Fin 128)

/-- g fully assembled: row r is row (r mod 200) of what point r / 200 computes. -/
def gFull (c : Dev nD) : Vec F S10000x128 .f32 := fun y => sliceOf m c (blockOfRow y) (rowIn y)

/-- `g` agrees with the assembled array on the rows below 200 · n. -/
def Filled (c : Dev nD) (n : ℕ) (g : Vec F S10000x128 .f32) : Prop :=
  ∀ y : S10000x128.Idx, (y 0).val < 200 * n → g y = gFull m c y

/-- Once all 50 row blocks are in, `g` is the assembled array. -/
theorem Filled.eq_gFull {c : Dev nD} {n : ℕ} {g : Vec F S10000x128 .f32} (h : Filled m c n g) (hn : 50 ≤ n) : g = gFull m c :=
  funext fun y => h y (by have : (y 0).val < 10000 := ValueIdx.idx2_lt0 y; omega)

/-- A first-sweep point's store extends the agreement by its row block: rows below 200·t are untouched by the store, and
    rows 200·t … 200·t + 199 now hold what point t computes. -/
theorem Filled.step {c : Dev nD} (t : Fin cfg0.N) (h1 : t.val < 50) (hc1 : k0_cond2 (grid0.coords t) = 1#1)
    {g : Vec F S10000x128 .f32} (hg : Filled m c t.val g) :
    Filled m c (t.val + 1) (withSlice scrG (Memref.isWhole_whole _) (grid0.coords t) hc1 g (sliceOf m c t)) := by
  intro y hy
  have hm : t.val % 50 = t.val := Nat.mod_eq_of_lt h1
  unfold withSlice
  by_cases hlt : (y 0).val < 200 * t.val
  · refine (View.read_writes_cons_rows_of_not_mem _ _ _ _ [] y (sliceOff_eq t) rfl (Or.inl (by rw [hm]; exact hlt))).trans ?_
    show scrG.view.read (Elt F) ((Memref.isWhole_whole _).unread g) y = _
    rw [(Memref.isWhole_whole _).read_unread]
    exact hg y hlt
  · have hb : blockOfRow y = t := Fin.ext (by show (y 0).val / 200 = t.val; omega)
    refine (View.read_writes_cons_rows_of_mem _ _ _ _ [] y (rowIn y) (sliceOff_eq t)
      (by show (y 0).val = 200 * (t.val % 50) + (y 0).val % 200; rw [hm]; omega) rfl).trans ?_
    unfold gFull; rw [hb]

/-- The region's invariant before point `n`: at the start what the launch hands over; afterwards z exact, g agreeing with
    the assembled array on the row blocks stored so far, and the generator register. -/
def Inv (c : Dev nD) : ℕ → sProp 𝕄
  | 0 => Pipeline.ΦA spec0 c
  | n + 1 => iprop(∃ g, ⌜Filled m c (n + 1) g⌝ ∗ (iprop(owns (c : Thread nD τ) scrZ fullShare (zOf m c) ∗ owns (c : Thread nD τ) scrG fullShare g) ∗ (∃ r, prngReg c r)))

theorem Inv_succ (c : Dev nD) (n : ℕ) :
    Inv m c (n + 1) = iprop(∃ g, ⌜Filled m c (n + 1) g⌝ ∗ (iprop(owns (c : Thread nD τ) scrZ fullShare (zOf m c) ∗ owns (c : Thread nD τ) scrG fullShare g) ∗ (∃ r, prngReg c r))) := rfl

theorem Inv_pos (c : Dev nD) (n : ℕ) (hn : n ≠ 0) :
    Inv m c n = iprop(∃ g, ⌜Filled m c n g⌝ ∗ (iprop(owns (c : Thread nD τ) scrZ fullShare (zOf m c) ∗ owns (c : Thread nD τ) scrG fullShare g) ∗ (∃ r, prngReg c r))) := by
  cases n with
  | zero => exact absurd rfl hn
  | succ n => rfl

/-- The proof data on core `c`: the arrays as the region finds them; each input's buffer left at its block; the result's
    buffer left at adj-block · gFull + b2 (consulted only in the second sweep: in the first the window rests); the invariant
    above; full shares, nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => k0_pay3 (iblk m c 1 t) (gFull m c) (iblk m c 5 t)
  Φ t := Inv m c t.val
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) :
    (dats m 0 c).after 6 t = k0_pay3 (iblk m c 1 t) (gFull m c) (iblk m c 5 t) := by dsimp only [dats]

/-- Each input's current buffer holds its block at every point, fetched there or not. -/
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d

/-- What the body is called with at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it hands back. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

theorem leaves_0 (c : Dev nD) (t : Fin cfg0.N) : (dats m 0 c).leavesExact 0 t = owns (c : Thread nD τ) (st0_0 t) fullShare (iblk m c 0 t) := by
  unfold Dat.leavesExact; rw [live_0 t, after_0]
theorem leaves_1 (c : Dev nD) (t : Fin cfg0.N) : (dats m 0 c).leavesExact 1 t = owns (c : Thread nD τ) (st0_1 t) fullShare (iblk m c 1 t) := by
  unfold Dat.leavesExact; rw [live_1 t, after_1]
theorem leaves_2 (c : Dev nD) (t : Fin cfg0.N) : (dats m 0 c).leavesExact 2 t = owns (c : Thread nD τ) (st0_2 t) fullShare (iblk m c 2 t) := by
  unfold Dat.leavesExact; rw [live_2 t, after_2]
theorem leaves_3 (c : Dev nD) (t : Fin cfg0.N) : (dats m 0 c).leavesExact 3 t = owns (c : Thread nD τ) (st0_3 t) fullShare (iblk m c 3 t) := by
  unfold Dat.leavesExact; rw [live_3 t, after_3]
theorem leaves_4 (c : Dev nD) (t : Fin cfg0.N) : (dats m 0 c).leavesExact 4 t = owns (c : Thread nD τ) (st0_4 t) fullShare (iblk m c 4 t) := by
  unfold Dat.leavesExact; rw [live_4 t, after_4]
theorem leaves_5 (c : Dev nD) (t : Fin cfg0.N) : (dats m 0 c).leavesExact 5 t = owns (c : Thread nD τ) (st0_5 t) fullShare (iblk m c 5 t) := by
  unfold Dat.leavesExact; rw [live_5 t, after_5]

/-- In the first sweep the result's window rests and is not written back: its buffer goes back as it came. -/
theorem leaves_6_rest (c : Dev nD) (t : Fin cfg0.N) (h1 : t.val < 50) :
    (dats m 0 c).leavesExact 6 t = iprop(∃ d, owns (c : Thread nD τ) (st0_6 t) fullShare ((dats m 0 c).before 6 t d)) :=
  (dats m 0 c).leavesExact_idle 6 t (by rw [rest_6 t]; exact decide_eq_true h1) (by rw [flush_6 t]; exact decide_eq_false (by omega))

/-- In the second sweep it is live: the buffer goes back at what the body stored. -/
theorem leaves_6_live (c : Dev nD) (t : Fin cfg0.N) (h2 : 50 ≤ t.val) :
    (dats m 0 c).leavesExact 6 t = owns (c : Thread nD τ) (st0_6 t) fullShare (k0_pay3 (iblk m c 1 t) (gFull m c) (iblk m c 5 t)) := by
  unfold Dat.leavesExact; rw [rest_6 t, decide_eq_false (by omega : ¬t.val < 50), after_6]

set_option maxHeartbeats 4000000 in
/-- The body at any point: the case is read off the point's number; the inputs' buffers hold their blocks; the invariant
    hands over the scratch arrays and takes them back with the agreement extended (first sweep) or unchanged (second). -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dats m 0 c).owesAt () t.succ = (dats m 0 c).owesAt () t.castSucc from rfl]
  rw [show (dats m 0 c).Φ t.succ = Inv m c (t.val + 1) from rfl, Inv_succ]
  rw [show (dats m 0 c).Φ t.castSucc = Inv m c t.val from rfl]
  rw [leaves_0, leaves_1, leaves_2, leaves_3, leaves_4, leaves_5]
  have hN : t.val < 100 := lt_of_lt_of_eq t.isLt N_eq
  by_cases h1 : t.val < 50
  · have hc1 : k0_cond2 (grid0.coords t) = 1#1 := (sweep1_iff t).mpr h1
    have hc2 : ¬k0_cond3 (grid0.coords t) = 1#1 := fun h => absurd ((sweep2_iff t).mp h) (by omega)
    rw [leaves_6_rest m c t h1]
    by_cases hz : t.val = 0
    · have hc0 : firstPoint (grid0.coords t) := (firstPoint_iff t).mpr hz
      obtain rfl : t = t0 := Fin.ext hz
      rw [show Inv m c (t0 : Fin cfg0.N).val = Pipeline.ΦA spec0 c from rfl, launchInv_eq]
      iintro ⟨⟨⟨⟨%dz, HS0⟩, ⟨%dg, HS1⟩⟩, Hg⟩, Ho, ⟨%d0, H0⟩, ⟨%d1, H1⟩, ⟨%d2, H2⟩, ⟨%d3, H3⟩, ⟨%d4, H4⟩, ⟨%d5, H5⟩, ⟨%d6, H6⟩⟩
      iapply (run_first c (grid0.coords t0) _ _ _ _ _ _ _ _ _ _ _ _ _ _ scrZ (Memref.isWhole_whole _) scrG (Memref.isWhole_whole _) hc0 hc1 hc2
        (iblk m c 0 t0) (iblk m c 1 t0) (iblk m c 2 t0) (iblk m c 3 t0) (iblk m c 4 t0) (iblk m c 5 t0) ((dats m 0 c).before 6 t0 d6) dz dg Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      iintro ⟨H0, H1, H2, H3, H4, H5, H6, HS0, HS1⟩
      isplitl [HS0 HS1 Hg]
      · iexists _; isplitr
        · ipureintro; exact Filled.step m t0 h1 hc1 (g := dg) (fun y hy => absurd hy (by show ¬(y 0).val < 200 * 0; omega))
        isplitl [HS0 HS1]
        · isplitl [HS0]; · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
    · have hc0 : ¬firstPoint (grid0.coords t) := fun h => hz ((firstPoint_iff t).mp h)
      rw [Inv_pos m c t.val hz]
      iintro ⟨⟨%g, %hg, ⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
      iapply (run_fill c (grid0.coords t) _ _ _ _ _ _ _ _ _ _ _ _ _ _ scrZ (Memref.isWhole_whole _) scrG (Memref.isWhole_whole _) hc0 hc1 hc2
        (iblk m c 0 t) (iblk m c 1 t) (iblk m c 2 t) (iblk m c 3 t) (iblk m c 4 t) (iblk m c 5 t) ((dats m 0 c).before 6 t d6) (zOf m c) g Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      iintro ⟨H0, H1, H2, H3, H4, H5, H6, HS0, HS1⟩
      isplitl [HS0 HS1 Hg]
      · iexists _; isplitr
        · ipureintro; exact Filled.step m t h1 hc1 hg
        isplitl [HS0 HS1]
        · isplitl [HS0]; · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
  · have h2 : 50 ≤ t.val := by omega
    have hz : t.val ≠ 0 := by omega
    have hc0 : ¬firstPoint (grid0.coords t) := fun h => hz ((firstPoint_iff t).mp h)
    have hc1 : ¬k0_cond2 (grid0.coords t) = 1#1 := fun h => h1 ((sweep1_iff t).mp h)
    have hc2 : k0_cond3 (grid0.coords t) = 1#1 := (sweep2_iff t).mpr h2
    rw [leaves_6_live m c t h2, Inv_pos m c t.val hz]
    iintro ⟨⟨%g, %hg, ⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
    obtain rfl : g = gFull m c := hg.eq_gFull m h2
    iapply (run_out c (grid0.coords t) _ _ _ _ _ _ _ _ _ _ _ _ _ _ scrZ (Memref.isWhole_whole _) scrG (Memref.isWhole_whole _) hc0 hc1 hc2
      (iblk m c 0 t) (iblk m c 1 t) (iblk m c 2 t) (iblk m c 3 t) (iblk m c 4 t) (iblk m c 5 t) ((dats m 0 c).before 6 t d6) (zOf m c) (gFull m c) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    isplitl [HS1]; · iexact HS1
    iintro ⟨H0, H1, H2, H3, H4, H5, H6, HS0, HS1⟩
    isplitl [HS0 HS1 Hg]
    · iexists _; isplitr
      · ipureintro; exact fun y _ => rfl
      isplitl [HS0 HS1]
      · isplitl [HS0]; · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem inv_in (c : Dev nD) : Pipeline.ΦA spec0 c ⊢ (dats m 0 c).Φ 0 :=
  Idealize.SL.BI.Entails.refl _

/-- After the last point the invariant gives it back: what the scratch arrays hold is forgotten. -/
theorem inv_out (c : Dev nD) : (dats m 0 c).Φ (Fin.last cfg0.N) ⊢ Pipeline.ΦA spec0 c := by
  rw [show (dats m 0 c).Φ (Fin.last cfg0.N) = Inv m c (Fin.last cfg0.N).val from rfl,
    Inv_pos m c _ (by rw [Fin.val_last, N_eq]; omega), launchInv_eq]
  iintro ⟨%g, -, ⟨HS0, HS1⟩, Hg⟩
  isplitl [HS0 HS1]
  · isplitl [HS0]
    · iexists _; iexact HS0
    iexists _; iexact HS1
  iexact Hg

/-- The run: every weakly fair execution of @main terminates, each array of the region ends at what the library computes
    from the proof data (an input unchanged; the result overwritten block by block by what the second sweep left), and
    every other unscoped buffer is as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := inv_in m) (hout := inv_out m)

/-- The frame: every execution terminates and the six argument arrays end unchanged, at any instance of the floats. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.Kernel.Body

end
-- ==== Proof.KernelIdeal.Grid.lean ====
import proofs.«162649_g34110630265430_cont_sun_c4_604_4_alg».proof.Proof.Gen.KernelIdeal.Frame
import proofs.«162649_g34110630265430_cont_sun_c4_604_4_alg».proof.Proof.Gen.KernelIdeal.Skeleton
import Idealize.ShloMosaic.Lib.Pipeline.Value
import Idealize.ShloMosaic.Lib.ValueIdx
import Idealize.ShloMosaic.Lib.WritesUnit

set_option maxRecDepth 16384

noncomputable section

/-! The grid of the one region has 100 points, read as two sweeps of 50 row blocks: the first sweep (points 0–49)
fills the hidden layer's projection 200 rows at a time, the second (points 50–99) multiplies the adjacency block by it.
This module decides, once over the grid, which of the body's three conditionals a point takes, where the slice a
first-sweep point stores sits, and when the result window rests and when it is written back. -/

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The body's first conditional: both grid coordinates are zero. -/
abbrev firstPoint (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1

/-- Only point 0 has both coordinates zero. -/
theorem firstPoint_iff : ∀ t : Fin cfg0.N, firstPoint (grid0.coords t) ↔ t.val = 0 :=
  (by decide +kernel : ∀ t : Fin grid0.N, firstPoint (grid0.coords t) ↔ t.val = 0)

/-- The first sweep is the points below 50. -/
theorem sweep1_iff : ∀ t : Fin cfg0.N, k0_cond2 (grid0.coords t) = 1#1 ↔ t.val < 50 :=
  (by decide +kernel : ∀ t : Fin grid0.N, k0_cond2 (grid0.coords t) = 1#1 ↔ t.val < 50)

/-- The second sweep is the points from 50 on. -/
theorem sweep2_iff : ∀ t : Fin cfg0.N, k0_cond3 (grid0.coords t) = 1#1 ↔ 50 ≤ t.val :=
  (by decide +kernel : ∀ t : Fin grid0.N, k0_cond3 (grid0.coords t) = 1#1 ↔ 50 ≤ t.val)

/-- The slice a point stores into the second scratch starts at row 200 · (t mod 50), column 0. -/
theorem sliceOff_eq : ∀ t : Fin cfg0.N, k0_off1 (grid0.coords t) = ![200 * (t.val % 50), 0] :=
  (by decide +kernel : ∀ t : Fin grid0.N, k0_off1 (grid0.coords t) = ![200 * (t.val % 50), 0])

/-- The input windows never rest. -/
theorem live_0 : ∀ t : Fin cfg0.N, cfg0.idle 0 (grid0.coords t) = false := by decide +kernel
theorem live_1 : ∀ t : Fin cfg0.N, cfg0.idle 1 (grid0.coords t) = false := by decide +kernel
theorem live_2 : ∀ t : Fin cfg0.N, cfg0.idle 2 (grid0.coords t) = false := by decide +kernel
theorem live_3 : ∀ t : Fin cfg0.N, cfg0.idle 3 (grid0.coords t) = false := by decide +kernel
theorem live_4 : ∀ t : Fin cfg0.N, cfg0.idle 4 (grid0.coords t) = false := by decide +kernel
theorem live_5 : ∀ t : Fin cfg0.N, cfg0.idle 5 (grid0.coords t) = false := by decide +kernel

/-- The result window rests through the first sweep, -/
theorem rest_6 : ∀ t : Fin cfg0.N, cfg0.idle 6 (grid0.coords t) = decide (t.val < 50) :=
  (by decide +kernel : ∀ t : Fin grid0.N, cfg0.idle 6 (grid0.coords t) = decide (t.val < 50))

/-- and is written back after every point of the second sweep and after none of the first. -/
theorem flush_6 : ∀ t : Fin cfg0.N, (cfg0.win 6).flush t = decide (50 ≤ t.val) :=
  (by decide +kernel : ∀ t : Fin grid0.N, win0_6.flush t = decide (50 ≤ t.val))

/-- The block of the result a second-sweep point writes back is row block t − 50; it is never fetched. -/
theorem index_6 : ∀ t : Fin cfg0.N, 50 ≤ t.val → win0_6.index t (0 : Fin 2) = t.val - 50 ∧ win0_6.index t (1 : Fin 2) = 0 :=
  (by decide +kernel : ∀ t : Fin grid0.N, 50 ≤ t.val → win0_6.index t (0 : Fin 2) = t.val - 50 ∧ win0_6.index t (1 : Fin 2) = 0)

theorem fetch_6 : ∀ t : Fin cfg0.N, (cfg0.win 6).fetch t = false :=
  (by decide +kernel : ∀ t : Fin grid0.N, win0_6.fetch t = false)

/-- The adjacency window's block at a point is row block t mod 50, all columns; the other inputs' blocks are whole arrays. -/
theorem index_1 : ∀ t : Fin cfg0.N, win0_1.index t (0 : Fin 2) = t.val % 50 ∧ win0_1.index t (1 : Fin 2) = 0 :=
  (by decide +kernel : ∀ t : Fin grid0.N, win0_1.index t (0 : Fin 2) = t.val % 50 ∧ win0_1.index t (1 : Fin 2) = 0)
theorem index_0 : ∀ t : Fin cfg0.N, win0_0.index t (0 : Fin 2) = 0 ∧ win0_0.index t (1 : Fin 2) = 0 :=
  (by decide +kernel : ∀ t : Fin grid0.N, win0_0.index t (0 : Fin 2) = 0 ∧ win0_0.index t (1 : Fin 2) = 0)
theorem index_2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)
theorem index_3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)
theorem index_4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)
theorem index_5 : ∀ t : Fin cfg0.N, win0_5.index t (0 : Fin 2) = 0 ∧ win0_5.index t (1 : Fin 2) = 0 :=
  (by decide +kernel : ∀ t : Fin grid0.N, win0_5.index t (0 : Fin 2) = 0 ∧ win0_5.index t (1 : Fin 2) = 0)

/-- Offsets zero on both axes, as the printed rectangles spell them. -/
theorem zero2 : (![0, 0] : Fin 2 → ℕ) = fun _ => 0 := by funext a; fin_cases a <;> rfl

/-- One store through the whole shape leaves its payload, whatever the buffer held. -/
theorem read_store_whole {S : Shape} {κ : Kind} {sp : Space} {e : EltTy} (v : View sig κ sp S e) (f : v.ty.Contents (Elt F))
    {off : Fin S.rank → ℕ} (h : off = fun _ => 0) (inb : ∀ a, off a + S.size a ≤ S.size a) (w : S.Idx → Elt F e) :
    v.read (Elt F) (v.writes (Elt F) f [(⟨Rect.unit off S.size inb, w⟩ : View.Piece (Elt F) S e)]) = w :=
  (View.read_writes_eq_canon v f _ (fun y => ⟨_, List.mem_singleton_self _, View.mem_set_unit_zero h inb y⟩)).trans
    (View.canon_unit_zero h inb w)

/-- The second scratch after a first-sweep point: the 200 rows the point computes (`w`) written at the point's slice
    over what the scratch held (`g`). -/
def withSlice (arg10 : Memref sig .tc .vmem S10000x128 .f32) (harg10 : arg10.IsWhole) (i : grid0.Coords) (h : k0_cond2 i = 1#1)
    (g : Vec F S10000x128 .f32) (w : Vec F S200x128 .f32) : Vec F S10000x128 .f32 :=
  arg10.view.read (Elt F) (arg10.view.writes (Elt F) (harg10.unread g)
    [(⟨Rect.unit (s := S10000x128) (k0_off1 i) S200x128.size (Cert.KernelIdeal.Gen.k0_off1_inb i h), w⟩ : View.Piece (Elt F) S10000x128 .f32)])

end Cert.KernelIdeal.Body

end
-- ==== Proof.KernelIdeal.RunFirst.lean ====
import proofs.«162649_g34110630265430_cont_sun_c4_604_4_alg».proof.Proof.KernelIdeal.Grid

set_option maxRecDepth 16384

noncomputable section

/-! The body at the first point: z = x · W1 stored whole into the first scratch, read back, and the first 200 rows of
relu(adjacency block · z + b1) · W2 stored at the point's slice of the second scratch. -/

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- At the first point the body leaves the inputs and the result's buffer as it found them, the first scratch at `x · W1`
    (the skeleton's first payload) whatever it held, and the second scratch with the point's 200 rows, computed from that
    product, written over what it held. -/
theorem run_first (c : Dev nD) (i : grid0.Coords) (arg2 : Memref sig .tc .vmem S10000x512 .f32) (harg2 : arg2.IsWhole) (arg3 : Memref sig .tc .vmem S200x10000 .f32) (harg3 : arg3.IsWhole) (arg4 : Memref sig .tc .vmem S512x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S200x128 .f32) (harg8 : arg8.IsWhole) (arg9 : Memref sig .tc .vmem S10000x128 .f32) (harg9 : arg9.IsWhole) (arg10 : Memref sig .tc .vmem S10000x128 .f32) (harg10 : arg10.IsWhole)
    (hc0 : firstPoint i) (hc1 : k0_cond2 i = 1#1) (hc2 : ¬k0_cond3 i = 1#1)
    (x0 : Vec F S10000x512 .f32) (x1 : Vec F S200x10000 .f32) (x2 : Vec F S512x128 .f32) (x3 : Vec F S1x128 .f32) (x4 : Vec F S128x128 .f32) (x5 : Vec F S1x128 .f32) (x6 : Vec F S200x128 .f32) (z g : Vec F S10000x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare z ∗ owns (c : Thread nD τ) arg10 fullShare g
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (k0_pay1 x0 x2) ∗ owns (c : Thread nD τ) arg10 fullShare (withSlice arg10 harg10 i hc1 g (k0_pay2 x1 (k0_pay1 x0 x2) x3 x4))) -∗ K ⟨⟩))
      ⊢ wp frame (wpE (defs₀ (F := F)) Variants.none c none) E (cc0__fused i arg2 harg2 arg3 harg3 arg4 harg4 arg5 harg5 arg6 harg6 arg7 harg7 arg8 harg8 arg9 harg9 arg10 harg10) K := by
  simp only [cc0__fused_eq_skeleton]; unfold cc0__fused_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5
  obtain rfl := harg8.eq_unread hf6; obtain rfl := harg9.eq_unread hfs0; obtain rfl := harg10.eq_unread hfs1
  clear hf0 hf1 hf2 hf3 hf4 hf5 hf6 hfs0 hfs1
  sl_exec (disch := first | exact hc0 | exact hc1 | exact hc2)
  sl_step
  sl_unfold_words
  simp only [View.readAt_eq_ld, harg2.read_unread, harg3.read_unread, harg4.read_unread, harg5.read_unread, harg6.read_unread,
    View.ld_unit_zero (S := S10000x512) zero2, View.ld_unit_zero (S := S512x128) zero2,
    View.ld_unit_zero (S := S200x10000) zero2, View.ld_unit_zero (S := S1x128) zero2, View.ld_unit_zero (S := S128x128) zero2,
    View.readCov_unit_zero (S := S10000x128) _ zero2]
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [HS0]
  · iexists _; isplitr; swap; · iexact HS0
    ipureintro; exact read_store_whole _ _ zero2 _ _
  iexists _; isplitr; swap; · iexact HS1
  ipureintro; rfl

end Cert.KernelIdeal.Body

end
-- ==== Proof.KernelIdeal.RunFill.lean ====
import proofs.«162649_g34110630265430_cont_sun_c4_604_4_alg».proof.Proof.KernelIdeal.Grid

set_option maxRecDepth 16384

noncomputable section

/-! The body at a point of the first sweep other than the first: relu(adjacency block · z + b1) · W2, 200 rows, stored at
the point's slice of the second scratch; the first scratch (z) is only read and the result's buffer is not touched. -/

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- At such a point the body leaves the inputs, the result's buffer and the first scratch as it found them, and the second
    scratch with the point's 200 rows (the skeleton's second payload) written over what it held. -/
theorem run_fill (c : Dev nD) (i : grid0.Coords) (arg2 : Memref sig .tc .vmem S10000x512 .f32) (harg2 : arg2.IsWhole) (arg3 : Memref sig .tc .vmem S200x10000 .f32) (harg3 : arg3.IsWhole) (arg4 : Memref sig .tc .vmem S512x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S200x128 .f32) (harg8 : arg8.IsWhole) (arg9 : Memref sig .tc .vmem S10000x128 .f32) (harg9 : arg9.IsWhole) (arg10 : Memref sig .tc .vmem S10000x128 .f32) (harg10 : arg10.IsWhole)
    (hc0 : ¬firstPoint i) (hc1 : k0_cond2 i = 1#1) (hc2 : ¬k0_cond3 i = 1#1)
    (x0 : Vec F S10000x512 .f32) (x1 : Vec F S200x10000 .f32) (x2 : Vec F S512x128 .f32) (x3 : Vec F S1x128 .f32) (x4 : Vec F S128x128 .f32) (x5 : Vec F S1x128 .f32) (x6 : Vec F S200x128 .f32) (z g : Vec F S10000x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare z ∗ owns (c : Thread nD τ) arg10 fullShare g
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare z ∗ owns (c : Thread nD τ) arg10 fullShare (withSlice arg10 harg10 i hc1 g (k0_pay2 x1 z x3 x4))) -∗ K ⟨⟩))
      ⊢ wp frame (wpE (defs₀ (F := F)) Variants.none c none) E (cc0__fused i arg2 harg2 arg3 harg3 arg4 harg4 arg5 harg5 arg6 harg6 arg7 harg7 arg8 harg8 arg9 harg9 arg10 harg10) K := by
  simp only [cc0__fused_eq_skeleton]; unfold cc0__fused_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5
  obtain rfl := harg8.eq_unread hf6; obtain rfl := harg9.eq_unread hfs0; obtain rfl := harg10.eq_unread hfs1
  clear hf0 hf1 hf2 hf3 hf4 hf5 hf6 hfs0 hfs1
  sl_exec (disch := first | exact hc0 | exact hc1 | exact hc2)
  sl_step
  simp only [View.readAt_eq_ld, harg3.read_unread, harg5.read_unread, harg6.read_unread, harg9.read_unread,
    View.ld_unit_zero (S := S200x10000) zero2, View.ld_unit_zero (S := S1x128) zero2, View.ld_unit_zero (S := S128x128) zero2,
    View.ld_unit_zero (S := S10000x128) zero2]
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [HS0]
  · iexists _; isplitr; · ipureintro; exact harg9.read_unread _
    iexact HS0
  iexists _; isplitr; swap; · iexact HS1
  ipureintro; rfl

end Cert.KernelIdeal.Body

end
-- ==== Proof.KernelIdeal.RunOut.lean ====
import proofs.«162649_g34110630265430_cont_sun_c4_604_4_alg».proof.Proof.KernelIdeal.Grid

set_option maxRecDepth 16384

noncomputable section

/-! The body at a point of the second sweep: the adjacency block times the finished projection, plus the second bias,
stored whole into the result's buffer; both scratch buffers are only read. -/

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- At a second-sweep point the body leaves the inputs and both scratch buffers as it found them and the result's buffer at
    `adj-block · g + b2` (the skeleton's third payload), whatever that buffer held. -/
theorem run_out (c : Dev nD) (i : grid0.Coords) (arg2 : Memref sig .tc .vmem S10000x512 .f32) (harg2 : arg2.IsWhole) (arg3 : Memref sig .tc .vmem S200x10000 .f32) (harg3 : arg3.IsWhole) (arg4 : Memref sig .tc .vmem S512x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S200x128 .f32) (harg8 : arg8.IsWhole) (arg9 : Memref sig .tc .vmem S10000x128 .f32) (harg9 : arg9.IsWhole) (arg10 : Memref sig .tc .vmem S10000x128 .f32) (harg10 : arg10.IsWhole)
    (hc0 : ¬firstPoint i) (hc1 : ¬k0_cond2 i = 1#1) (hc2 : k0_cond3 i = 1#1)
    (x0 : Vec F S10000x512 .f32) (x1 : Vec F S200x10000 .f32) (x2 : Vec F S512x128 .f32) (x3 : Vec F S1x128 .f32) (x4 : Vec F S128x128 .f32) (x5 : Vec F S1x128 .f32) (x6 : Vec F S200x128 .f32) (z g : Vec F S10000x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare z ∗ owns (c : Thread nD τ) arg10 fullShare g
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (k0_pay3 x1 g x5) ∗ owns (c : Thread nD τ) arg9 fullShare z ∗ owns (c : Thread nD τ) arg10 fullShare g) -∗ K ⟨⟩))
      ⊢ wp frame (wpE (defs₀ (F := F)) Variants.none c none) E (cc0__fused i arg2 harg2 arg3 harg3 arg4 harg4 arg5 harg5 arg6 harg6 arg7 harg7 arg8 harg8 arg9 harg9 arg10 harg10) K := by
  simp only [cc0__fused_eq_skeleton]; unfold cc0__fused_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5
  obtain rfl := harg8.eq_unread hf6; obtain rfl := harg9.eq_unread hfs0; obtain rfl := harg10.eq_unread hfs1
  clear hf0 hf1 hf2 hf3 hf4 hf5 hf6 hfs0 hfs1
  sl_exec (disch := first | exact hc0 | exact hc1 | exact hc2)
  sl_step
  simp only [View.readAt_eq_ld, harg3.read_unread, harg7.read_unread, harg10.read_unread,
    View.ld_unit_zero (S := S200x10000) zero2, View.ld_unit_zero (S := S1x128) zero2, View.ld_unit_zero (S := S10000x128) zero2]
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; swap; · iexact H6
    ipureintro; exact read_store_whole _ _ zero2 _ _
  isplitl [HS0]
  · iexists _; isplitr; · ipureintro; exact harg9.read_unread _
    iexact HS0
  iexists _; isplitr; · ipureintro; exact harg10.read_unread _
  iexact HS1

end Cert.KernelIdeal.Body

end
-- ==== Proof.KernelIdeal.Body.lean ====
import proofs.«162649_g34110630265430_cont_sun_c4_604_4_alg».proof.Proof.KernelIdeal.RunFirst
import proofs.«162649_g34110630265430_cont_sun_c4_604_4_alg».proof.Proof.KernelIdeal.RunFill
import proofs.«162649_g34110630265430_cont_sun_c4_604_4_alg».proof.Proof.KernelIdeal.RunOut

set_option maxRecDepth 16384

noncomputable section

/-! The proof data of the one region and its body obligation.

Between points the kernel keeps two scratch arrays: z = x · W1, computed whole at point 0, and g, whose row block s
(rows 200·s … 200·s + 199) is stored by first-sweep point s as relu(adj-block s · z + b1) · W2. What g held before the
region is unknown, so the invariant after point n says: z is exact, and g is SOME array that agrees with the fully
assembled `gFull` on the rows below 200·(n+1). From point 49 on that is every row, so the second sweep reads `gFull` itself
and leaves adj-block · gFull + b2 in the result's buffer, which is written back after each of its points. -/

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The two scratch operands as whole memrefs. -/
abbrev scrZ : Memref sig .tc .vmem S10000x128 .f32 := Memref.whole cc0_scratch0
abbrev scrG : Memref sig .tc .vmem S10000x128 .f32 := Memref.whole cc0_scratch1

/-- What the launch hands the region beyond the windows: both scratch arrays at some contents and the generator register. -/
theorem launchInv_eq (c : Dev nD) :
    (Pipeline.ΦA spec0 c : sProp 𝕄)
      = iprop(iprop((∃ d, owns (c : Thread nD τ) scrZ fullShare d) ∗ (∃ d, owns (c : Thread nD τ) scrG fullShare d)) ∗ (∃ r, prngReg c r)) := by
  unfold Pipeline.ΦA; rw [scopedRest0_eq]; simp only [scrZ, scrG, owns_whole]; try rfl

theorem N_eq : cfg0.N = 100 := N_0

/-- Point 0. -/
def t0 : Fin cfg0.N := ⟨0, by rw [N_eq]; omega⟩

/-- z = x · W1, from the (whole-array) blocks of x and W1 at point 0. -/
def zOf (c : Dev nD) : Vec F S10000x128 .f32 := k0_pay1 (iblk m c 0 t0) (iblk m c 2 t0)

/-- The 200 rows point `t` computes: relu(adj-block t · z + b1) · W2. -/
def sliceOf (c : Dev nD) (t : Fin cfg0.N) : Vec F S200x128 .f32 :=
  k0_pay2 (iblk m c 1 t) (zOf m c) (iblk m c 3 t) (iblk m c 4 t)

/-- The row block a row of g lies in, as a grid point of the first sweep, -/
def blockOfRow (y : S10000x128.Idx) : Fin cfg0.N :=
  ⟨(y 0).val / 200, by have h : (y 0).val < 10000 := ValueIdx.idx2_lt0 y; rw [N_eq]; omega⟩

/-- and its position inside that block. -/
def rowIn (y : S10000x128.Idx) : S200x128.Idx :=
  ValueIdx.ix2 (⟨(y 0).val % 200, Nat.mod_lt _ (by omega)⟩ : Fin 200) (⟨(y 1).val, ValueIdx.idx2_lt1 y⟩ : Fin 128)

/-- g fully assembled: row r is row (r mod 200) of what point r / 200 computes. -/
def gFull (c : Dev nD) : Vec F S10000x128 .f32 := fun y => sliceOf m c (blockOfRow y) (rowIn y)

/-- `g` agrees with the assembled array on the rows below 200 · n. -/
def Filled (c : Dev nD) (n : ℕ) (g : Vec F S10000x128 .f32) : Prop :=
  ∀ y : S10000x128.Idx, (y 0).val < 200 * n → g y = gFull m c y

/-- Once all 50 row blocks are in, `g` is the assembled array. -/
theorem Filled.eq_gFull {c : Dev nD} {n : ℕ} {g : Vec F S10000x128 .f32} (h : Filled m c n g) (hn : 50 ≤ n) : g = gFull m c :=
  funext fun y => h y (by have : (y 0).val < 10000 := ValueIdx.idx2_lt0 y; omega)

/-- A first-sweep point's store extends the agreement by its row block: rows below 200·t are untouched by the store, and
    rows 200·t … 200·t + 199 now hold what point t computes. -/
theorem Filled.step {c : Dev nD} (t : Fin cfg0.N) (h1 : t.val < 50) (hc1 : k0_cond2 (grid0.coords t) = 1#1)
    {g : Vec F S10000x128 .f32} (hg : Filled m c t.val g) :
    Filled m c (t.val + 1) (withSlice scrG (Memref.isWhole_whole _) (grid0.coords t) hc1 g (sliceOf m c t)) := by
  intro y hy
  have hm : t.val % 50 = t.val := Nat.mod_eq_of_lt h1
  unfold withSlice
  by_cases hlt : (y 0).val < 200 * t.val
  · refine (View.read_writes_cons_rows_of_not_mem _ _ _ _ [] y (sliceOff_eq t) rfl (Or.inl (by rw [hm]; exact hlt))).trans ?_
    show scrG.view.read (Elt F) ((Memref.isWhole_whole _).unread g) y = _
    rw [(Memref.isWhole_whole _).read_unread]
    exact hg y hlt
  · have hb : blockOfRow y = t := Fin.ext (by show (y 0).val / 200 = t.val; omega)
    refine (View.read_writes_cons_rows_of_mem _ _ _ _ [] y (rowIn y) (sliceOff_eq t)
      (by show (y 0).val = 200 * (t.val % 50) + (y 0).val % 200; rw [hm]; omega) rfl).trans ?_
    unfold gFull; rw [hb]

/-- The region's invariant before point `n`: at the start what the launch hands over; afterwards z exact, g agreeing with
    the assembled array on the row blocks stored so far, and the generator register. -/
def Inv (c : Dev nD) : ℕ → sProp 𝕄
  | 0 => Pipeline.ΦA spec0 c
  | n + 1 => iprop(∃ g, ⌜Filled m c (n + 1) g⌝ ∗ (iprop(owns (c : Thread nD τ) scrZ fullShare (zOf m c) ∗ owns (c : Thread nD τ) scrG fullShare g) ∗ (∃ r, prngReg c r)))

theorem Inv_succ (c : Dev nD) (n : ℕ) :
    Inv m c (n + 1) = iprop(∃ g, ⌜Filled m c (n + 1) g⌝ ∗ (iprop(owns (c : Thread nD τ) scrZ fullShare (zOf m c) ∗ owns (c : Thread nD τ) scrG fullShare g) ∗ (∃ r, prngReg c r))) := rfl

theorem Inv_pos (c : Dev nD) (n : ℕ) (hn : n ≠ 0) :
    Inv m c n = iprop(∃ g, ⌜Filled m c n g⌝ ∗ (iprop(owns (c : Thread nD τ) scrZ fullShare (zOf m c) ∗ owns (c : Thread nD τ) scrG fullShare g) ∗ (∃ r, prngReg c r))) := by
  cases n with
  | zero => exact absurd rfl hn
  | succ n => rfl

/-- The proof data on core `c`: the arrays as the region finds them; each input's buffer left at its block; the result's
    buffer left at adj-block · gFull + b2 (consulted only in the second sweep: in the first the window rests); the invariant
    above; full shares, nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => k0_pay3 (iblk m c 1 t) (gFull m c) (iblk m c 5 t)
  Φ t := Inv m c t.val
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) :
    (dats m 0 c).after 6 t = k0_pay3 (iblk m c 1 t) (gFull m c) (iblk m c 5 t) := by dsimp only [dats]

/-- Each input's current buffer holds its block at every point, fetched there or not. -/
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d

/-- What the body is called with at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it hands back. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

theorem leaves_0 (c : Dev nD) (t : Fin cfg0.N) : (dats m 0 c).leavesExact 0 t = owns (c : Thread nD τ) (st0_0 t) fullShare (iblk m c 0 t) := by
  unfold Dat.leavesExact; rw [live_0 t, after_0]
theorem leaves_1 (c : Dev nD) (t : Fin cfg0.N) : (dats m 0 c).leavesExact 1 t = owns (c : Thread nD τ) (st0_1 t) fullShare (iblk m c 1 t) := by
  unfold Dat.leavesExact; rw [live_1 t, after_1]
theorem leaves_2 (c : Dev nD) (t : Fin cfg0.N) : (dats m 0 c).leavesExact 2 t = owns (c : Thread nD τ) (st0_2 t) fullShare (iblk m c 2 t) := by
  unfold Dat.leavesExact; rw [live_2 t, after_2]
theorem leaves_3 (c : Dev nD) (t : Fin cfg0.N) : (dats m 0 c).leavesExact 3 t = owns (c : Thread nD τ) (st0_3 t) fullShare (iblk m c 3 t) := by
  unfold Dat.leavesExact; rw [live_3 t, after_3]
theorem leaves_4 (c : Dev nD) (t : Fin cfg0.N) : (dats m 0 c).leavesExact 4 t = owns (c : Thread nD τ) (st0_4 t) fullShare (iblk m c 4 t) := by
  unfold Dat.leavesExact; rw [live_4 t, after_4]
theorem leaves_5 (c : Dev nD) (t : Fin cfg0.N) : (dats m 0 c).leavesExact 5 t = owns (c : Thread nD τ) (st0_5 t) fullShare (iblk m c 5 t) := by
  unfold Dat.leavesExact; rw [live_5 t, after_5]

/-- In the first sweep the result's window rests and is not written back: its buffer goes back as it came. -/
theorem leaves_6_rest (c : Dev nD) (t : Fin cfg0.N) (h1 : t.val < 50) :
    (dats m 0 c).leavesExact 6 t = iprop(∃ d, owns (c : Thread nD τ) (st0_6 t) fullShare ((dats m 0 c).before 6 t d)) :=
  (dats m 0 c).leavesExact_idle 6 t (by rw [rest_6 t]; exact decide_eq_true h1) (by rw [flush_6 t]; exact decide_eq_false (by omega))

/-- In the second sweep it is live: the buffer goes back at what the body stored. -/
theorem leaves_6_live (c : Dev nD) (t : Fin cfg0.N) (h2 : 50 ≤ t.val) :
    (dats m 0 c).leavesExact 6 t = owns (c : Thread nD τ) (st0_6 t) fullShare (k0_pay3 (iblk m c 1 t) (gFull m c) (iblk m c 5 t)) := by
  unfold Dat.leavesExact; rw [rest_6 t, decide_eq_false (by omega : ¬t.val < 50), after_6]

set_option maxHeartbeats 4000000 in
/-- The body at any point: the case is read off the point's number; the inputs' buffers hold their blocks; the invariant
    hands over the scratch arrays and takes them back with the agreement extended (first sweep) or unchanged (second). -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dats m 0 c).owesAt () t.succ = (dats m 0 c).owesAt () t.castSucc from rfl]
  rw [show (dats m 0 c).Φ t.succ = Inv m c (t.val + 1) from rfl, Inv_succ]
  rw [show (dats m 0 c).Φ t.castSucc = Inv m c t.val from rfl]
  rw [leaves_0, leaves_1, leaves_2, leaves_3, leaves_4, leaves_5]
  have hN : t.val < 100 := lt_of_lt_of_eq t.isLt N_eq
  by_cases h1 : t.val < 50
  · have hc1 : k0_cond2 (grid0.coords t) = 1#1 := (sweep1_iff t).mpr h1
    have hc2 : ¬k0_cond3 (grid0.coords t) = 1#1 := fun h => absurd ((sweep2_iff t).mp h) (by omega)
    rw [leaves_6_rest m c t h1]
    by_cases hz : t.val = 0
    · have hc0 : firstPoint (grid0.coords t) := (firstPoint_iff t).mpr hz
      obtain rfl : t = t0 := Fin.ext hz
      rw [show Inv m c (t0 : Fin cfg0.N).val = Pipeline.ΦA spec0 c from rfl, launchInv_eq]
      iintro ⟨⟨⟨⟨%dz, HS0⟩, ⟨%dg, HS1⟩⟩, Hg⟩, Ho, ⟨%d0, H0⟩, ⟨%d1, H1⟩, ⟨%d2, H2⟩, ⟨%d3, H3⟩, ⟨%d4, H4⟩, ⟨%d5, H5⟩, ⟨%d6, H6⟩⟩
      iapply (run_first c (grid0.coords t0) _ _ _ _ _ _ _ _ _ _ _ _ _ _ scrZ (Memref.isWhole_whole _) scrG (Memref.isWhole_whole _) hc0 hc1 hc2
        (iblk m c 0 t0) (iblk m c 1 t0) (iblk m c 2 t0) (iblk m c 3 t0) (iblk m c 4 t0) (iblk m c 5 t0) ((dats m 0 c).before 6 t0 d6) dz dg Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      iintro ⟨H0, H1, H2, H3, H4, H5, H6, HS0, HS1⟩
      isplitl [HS0 HS1 Hg]
      · iexists _; isplitr
        · ipureintro; exact Filled.step m t0 h1 hc1 (g := dg) (fun y hy => absurd hy (by show ¬(y 0).val < 200 * 0; omega))
        isplitl [HS0 HS1]
        · isplitl [HS0]; · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
    · have hc0 : ¬firstPoint (grid0.coords t) := fun h => hz ((firstPoint_iff t).mp h)
      rw [Inv_pos m c t.val hz]
      iintro ⟨⟨%g, %hg, ⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
      iapply (run_fill c (grid0.coords t) _ _ _ _ _ _ _ _ _ _ _ _ _ _ scrZ (Memref.isWhole_whole _) scrG (Memref.isWhole_whole _) hc0 hc1 hc2
        (iblk m c 0 t) (iblk m c 1 t) (iblk m c 2 t) (iblk m c 3 t) (iblk m c 4 t) (iblk m c 5 t) ((dats m 0 c).before 6 t d6) (zOf m c) g Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      iintro ⟨H0, H1, H2, H3, H4, H5, H6, HS0, HS1⟩
      isplitl [HS0 HS1 Hg]
      · iexists _; isplitr
        · ipureintro; exact Filled.step m t h1 hc1 hg
        isplitl [HS0 HS1]
        · isplitl [HS0]; · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
  · have h2 : 50 ≤ t.val := by omega
    have hz : t.val ≠ 0 := by omega
    have hc0 : ¬firstPoint (grid0.coords t) := fun h => hz ((firstPoint_iff t).mp h)
    have hc1 : ¬k0_cond2 (grid0.coords t) = 1#1 := fun h => h1 ((sweep1_iff t).mp h)
    have hc2 : k0_cond3 (grid0.coords t) = 1#1 := (sweep2_iff t).mpr h2
    rw [leaves_6_live m c t h2, Inv_pos m c t.val hz]
    iintro ⟨⟨%g, %hg, ⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
    obtain rfl : g = gFull m c := hg.eq_gFull m h2
    iapply (run_out c (grid0.coords t) _ _ _ _ _ _ _ _ _ _ _ _ _ _ scrZ (Memref.isWhole_whole _) scrG (Memref.isWhole_whole _) hc0 hc1 hc2
      (iblk m c 0 t) (iblk m c 1 t) (iblk m c 2 t) (iblk m c 3 t) (iblk m c 4 t) (iblk m c 5 t) ((dats m 0 c).before 6 t d6) (zOf m c) (gFull m c) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    isplitl [HS1]; · iexact HS1
    iintro ⟨H0, H1, H2, H3, H4, H5, H6, HS0, HS1⟩
    isplitl [HS0 HS1 Hg]
    · iexists _; isplitr
      · ipureintro; exact fun y _ => rfl
      isplitl [HS0 HS1]
      · isplitl [HS0]; · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem inv_in (c : Dev nD) : Pipeline.ΦA spec0 c ⊢ (dats m 0 c).Φ 0 :=
  Idealize.SL.BI.Entails.refl _

/-- After the last point the invariant gives it back: what the scratch arrays hold is forgotten. -/
theorem inv_out (c : Dev nD) : (dats m 0 c).Φ (Fin.last cfg0.N) ⊢ Pipeline.ΦA spec0 c := by
  rw [show (dats m 0 c).Φ (Fin.last cfg0.N) = Inv m c (Fin.last cfg0.N).val from rfl,
    Inv_pos m c _ (by rw [Fin.val_last, N_eq]; omega), launchInv_eq]
  iintro ⟨%g, -, ⟨HS0, HS1⟩, Hg⟩
  isplitl [HS0 HS1]
  · isplitl [HS0]
    · iexists _; iexact HS0
    iexists _; iexact HS1
  iexact Hg

/-- The run: every weakly fair execution of @main terminates, each array of the region ends at what the library computes
    from the proof data (an input unchanged; the result overwritten block by block by what the second sweep left), and
    every other unscoped buffer is as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := inv_in m) (hout := inv_out m)

/-- The frame: every execution terminates and the six argument arrays end unchanged, at any instance of the floats. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.KernelIdeal.Body

end
-- ==== Proof.KernelIdeal.Blocks.lean ====
import proofs.«162649_g34110630265430_cont_sun_c4_604_4_alg».proof.Proof.KernelIdeal.Body
import Idealize.ShloMosaic.Lib.StableHlo.Run

set_option maxRecDepth 16384

noncomputable section

/-! Each input window's block at a point, entry by entry, as entries of the argument array it stages: x, W1 and W2 whole;
the adjacency's 200 rows starting at row 200 · (t mod 50); each bias as the one row the host reshapes it to. -/

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-- The block of x is x. -/
theorem blk_x (c : Dev nD) (t : Fin cfg0.N) (y k : S10000x512.Idx) (h0 : (k 0).val = (y 0).val) (h1 : (k 1).val = (y 1).val) :
    (iblk m c 0 t : Vec F S10000x512 .f32) y = (m ((c : Thread nD τ).loc main_arg0) : S10000x512.Idx → Elt F .f32) k := by
  unfold iblk
  rw [View.read_apply]
  show V m c main_arg0 _ = _
  rw [V_main_arg0 m c]
  congr 1
  funext a
  apply Fin.ext
  match a with
  | ⟨0, _⟩ => show win0_0.index t 0 * 10000 + 1 * (y 0).val = (k 0).val; rw [(index_0 t).1, h0]; omega
  | ⟨1, _⟩ => show win0_0.index t 1 * 512 + 1 * (y 1).val = (k 1).val; rw [(index_0 t).2, h1]; omega

/-- The block of W1 is W1. -/
theorem blk_w1 (c : Dev nD) (t : Fin cfg0.N) (y k : S512x128.Idx) (h0 : (k 0).val = (y 0).val) (h1 : (k 1).val = (y 1).val) :
    (iblk m c 2 t : Vec F S512x128 .f32) y = (m ((c : Thread nD τ).loc main_arg2) : S512x128.Idx → Elt F .f32) k := by
  unfold iblk
  rw [View.read_apply]
  show V m c main_arg2 _ = _
  rw [V_main_arg2 m c]
  congr 1
  funext a
  apply Fin.ext
  match a with
  | ⟨0, _⟩ => show win0_2.index t 0 * 512 + 1 * (y 0).val = (k 0).val; rw [(index_2 t).1, h0]; omega
  | ⟨1, _⟩ => show win0_2.index t 1 * 128 + 1 * (y 1).val = (k 1).val; rw [(index_2 t).2, h1]; omega

/-- The block of W2 is W2. -/
theorem blk_w2 (c : Dev nD) (t : Fin cfg0.N) (y k : S128x128.Idx) (h0 : (k 0).val = (y 0).val) (h1 : (k 1).val = (y 1).val) :
    (iblk m c 4 t : Vec F S128x128 .f32) y = (m ((c : Thread nD τ).loc main_arg4) : S128x128.Idx → Elt F .f32) k := by
  unfold iblk
  rw [View.read_apply]
  show V m c main_arg4 _ = _
  rw [V_main_arg4 m c]
  congr 1
  funext a
  apply Fin.ext
  match a with
  | ⟨0, _⟩ => show win0_4.index t 0 * 128 + 1 * (y 0).val = (k 0).val; rw [(index_4 t).1, h0]; omega
  | ⟨1, _⟩ => show win0_4.index t 1 * 128 + 1 * (y 1).val = (k 1).val; rw [(index_4 t).2, h1]; omega

/-- The adjacency's block at point `t` is its rows 200 · (t mod 50) … + 199, all columns. -/
theorem blk_adj (c : Dev nD) (t : Fin cfg0.N) (y : S200x10000.Idx) (k : S10000x10000.Idx)
    (h0 : (k 0).val = 200 * (t.val % 50) + (y 0).val) (h1 : (k 1).val = (y 1).val) :
    (iblk m c 1 t : Vec F S200x10000 .f32) y = (m ((c : Thread nD τ).loc main_arg1) : S10000x10000.Idx → Elt F .f32) k := by
  unfold iblk
  rw [View.read_apply]
  show V m c main_arg1 _ = _
  rw [V_main_arg1 m c]
  congr 1
  funext a
  apply Fin.ext
  match a with
  | ⟨0, _⟩ => show win0_1.index t 0 * 200 + 1 * (y 0).val = (k 0).val; rw [(index_1 t).1, h0]; omega
  | ⟨1, _⟩ => show win0_1.index t 1 * 10000 + 1 * (y 1).val = (k 1).val; rw [(index_1 t).2, h1]; omega

/-- The host reshapes the bias to one row before the region: the window's array is that row. -/
theorem V_main_v0 (c : Dev nD) : (V m c main_v0 : S1x128.Idx → Elt F .f32)
    = shapeCast S1x128 (m ((c : Thread nD τ).loc main_arg3) : S128.Idx → Elt F .f32) shapeCasts_S128_S1x128 := by
  dsimp only [V, hostOps0]; after_results; rfl

/-- The block of the first bias, entry (0, j), is b1 j. -/
theorem blk_b1 (c : Dev nD) (t : Fin cfg0.N) (y : S1x128.Idx) (k : S128.Idx) (h : (k 0).val = (y 1).val) :
    (iblk m c 3 t : Vec F S1x128 .f32) y = (m ((c : Thread nD τ).loc main_arg3) : S128.Idx → Elt F .f32) k := by
  unfold iblk
  rw [View.read_apply]
  show V m c main_v0 _ = _
  rw [V_main_v0 m c]
  refine shapeCast_apply _ _ _ k ?_
  rw [Shape.rowMajor_val_one, Shape.rowMajor_val_two]
  have hy : (y 0).val < 1 := (y 0).isLt
  show (k 0).val = (win0_3.index t 0 * 1 + 1 * (y 0).val) * 128 + (win0_3.index t 1 * 128 + 1 * (y 1).val)
  rw [(index_3 t).1, (index_3 t).2, h]; omega

/-- The host reshapes the bias to one row before the region: the window's array is that row. -/
theorem V_main_v1 (c : Dev nD) : (V m c main_v1 : S1x128.Idx → Elt F .f32)
    = shapeCast S1x128 (m ((c : Thread nD τ).loc main_arg5) : S128.Idx → Elt F .f32) shapeCasts_S128_S1x128 := by
  dsimp only [V, hostOps0]; after_results; rfl

/-- The block of the second bias, entry (0, j), is b2 j. -/
theorem blk_b2 (c : Dev nD) (t : Fin cfg0.N) (y : S1x128.Idx) (k : S128.Idx) (h : (k 0).val = (y 1).val) :
    (iblk m c 5 t : Vec F S1x128 .f32) y = (m ((c : Thread nD τ).loc main_arg5) : S128.Idx → Elt F .f32) k := by
  unfold iblk
  rw [View.read_apply]
  show V m c main_v1 _ = _
  rw [V_main_v1 m c]
  refine shapeCast_apply _ _ _ k ?_
  rw [Shape.rowMajor_val_one, Shape.rowMajor_val_two]
  have hy : (y 0).val < 1 := (y 0).isLt
  show (k 0).val = (win0_5.index t 0 * 1 + 1 * (y 0).val) * 128 + (win0_5.index t 1 * 128 + 1 * (y 1).val)
  rw [(index_5 t).1, (index_5 t).2, h]; omega

end Cert.KernelIdeal.Body

end
-- ==== Proof.Payload.lean ====
import proofs.«162649_g34110630265430_cont_sun_c4_604_4_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

/-! The body's three pure terms read at an index, over the extended reals.

A matrix product into a zero accumulator is, entry (r, c), the sum over k of left (r, k) · right (k, c); the bias row is
added to every row; the rectifier is the maximum with zero. So
  first payload  (r, c) = Σ_d x (r, d) · w1 (d, c),
  second payload (r, c) = Σ_j max (Σ_l a (r, l) · z (l, j) + b (0, j)) 0 · w2 (j, c),
  third payload  (r, c) = Σ_k a (r, k) · g (k, c) + b (0, c).
Each is stated with the operands' entries NAMED by the caller, so that a caller who knows a block's entries as entries of
an argument array states the result over the arrays directly. -/

namespace Cert.KernelIdeal.Payload

open Cert.KernelIdeal Cert.KernelIdeal.Gen Idealize.ShloMosaic Idealize.ShloMosaic.ValueIdx
open scoped BigOperators

/-- Entry (row of `j`, k) of a left operand and entry (k, column of `j`) of a right operand. -/
abbrev lft {n0 n1 K : Nat} (j : (⟨2, ![n0, n1]⟩ : Shape).Idx) (k : Fin K) : (⟨2, ![n0, K]⟩ : Shape).Idx := ix2 (j 0) k
abbrev rgt {n0 n1 K : Nat} (j : (⟨2, ![n0, n1]⟩ : Shape).Idx) (k : Fin K) : (⟨2, ![K, n1]⟩ : Shape).Idx := ix2 k (j 1)

/-- x · W1 into a zero accumulator, at an entry. -/
theorem mm_xw (l : FVec Ideal S10000x512 .f32) (r : FVec Ideal S512x128 .f32) (j : S10000x128.Idx) :
    matmul dot_S10000x512_S512x128_S10000x128_1_0_0_1_n_n none l r (constant (F := Ideal) S10000x128 .f32 0x00000000#32) j
      = ∑ k : Fin 512, l (lft j k) * r (rgt j k) := by
  refine (Ideal.matmul_constant_zero_apply dot_S10000x512_S512x128_S10000x128_1_0_0_1_n_n none l r j).trans ?_
  rw [← Equiv.sum_comp (ValueIdx.contrEquiv1 dot_S10000x512_S512x128_S10000x128_1_0_0_1_n_n 512 rfl rfl).symm]
  refine Finset.sum_congr rfl fun k _ => ?_
  have hk := ValueIdx.contrEquiv1_symm_val dot_S10000x512_S512x128_S10000x128_1_0_0_1_n_n 512 rfl rfl k
  have el : dot_S10000x512_S512x128_S10000x128_1_0_0_1_n_n.lhsIdx j ((ValueIdx.contrEquiv1 dot_S10000x512_S512x128_S10000x128_1_0_0_1_n_n 512 rfl rfl).symm k) = lft j k := funext fun a => Fin.ext (by
    match a with
    | ⟨0, _⟩ =>
      show (dot_S10000x512_S512x128_S10000x128_1_0_0_1_n_n.lhsIdx j _ 0).val = (j 0).val
      unfold DotDims.lhsIdx
      rw [dif_neg (show ¬(0 : Fin S10000x512.rank) ∈ dot_S10000x512_S512x128_S10000x128_1_0_0_1_n_n.lhsBatch by decide), dif_pos (show (0 : Fin S10000x512.rank) ∈ dot_S10000x512_S512x128_S10000x128_1_0_0_1_n_n.lhsNonContracting by decide)]
      rfl
    | ⟨1, _⟩ => exact (dot_S10000x512_S512x128_S10000x128_1_0_0_1_n_n.lhsIdx_val_of_single rfl j _).trans hk)
  have er : dot_S10000x512_S512x128_S10000x128_1_0_0_1_n_n.rhsIdx j ((ValueIdx.contrEquiv1 dot_S10000x512_S512x128_S10000x128_1_0_0_1_n_n 512 rfl rfl).symm k) = rgt j k := funext fun a => Fin.ext (by
    match a with
    | ⟨0, _⟩ => exact (dot_S10000x512_S512x128_S10000x128_1_0_0_1_n_n.rhsIdx_val_of_single rfl j _).trans hk
    | ⟨1, _⟩ =>
      show (dot_S10000x512_S512x128_S10000x128_1_0_0_1_n_n.rhsIdx j _ 1).val = (j 1).val
      unfold DotDims.rhsIdx
      rw [dif_neg (show ¬(1 : Fin S512x128.rank) ∈ dot_S10000x512_S512x128_S10000x128_1_0_0_1_n_n.rhsBatch by decide), dif_pos (show (1 : Fin S512x128.rank) ∈ dot_S10000x512_S512x128_S10000x128_1_0_0_1_n_n.rhsNonContracting by decide)]
      rfl)
  rw [el, er]

/-- An adjacency block times a 10000-row right operand into a zero accumulator, at an entry. -/
theorem mm_az (l : FVec Ideal S200x10000 .f32) (r : FVec Ideal S10000x128 .f32) (j : S200x128.Idx) :
    matmul dot_S200x10000_S10000x128_S200x128_1_0_0_1_n_n none l r (constant (F := Ideal) S200x128 .f32 0x00000000#32) j
      = ∑ k : Fin 10000, l (lft j k) * r (rgt j k) := by
  refine (Ideal.matmul_constant_zero_apply dot_S200x10000_S10000x128_S200x128_1_0_0_1_n_n none l r j).trans ?_
  rw [← Equiv.sum_comp (ValueIdx.contrEquiv1 dot_S200x10000_S10000x128_S200x128_1_0_0_1_n_n 10000 rfl rfl).symm]
  refine Finset.sum_congr rfl fun k _ => ?_
  have hk := ValueIdx.contrEquiv1_symm_val dot_S200x10000_S10000x128_S200x128_1_0_0_1_n_n 10000 rfl rfl k
  have el : dot_S200x10000_S10000x128_S200x128_1_0_0_1_n_n.lhsIdx j ((ValueIdx.contrEquiv1 dot_S200x10000_S10000x128_S200x128_1_0_0_1_n_n 10000 rfl rfl).symm k) = lft j k := funext fun a => Fin.ext (by
    match a with
    | ⟨0, _⟩ =>
      show (dot_S200x10000_S10000x128_S200x128_1_0_0_1_n_n.lhsIdx j _ 0).val = (j 0).val
      unfold DotDims.lhsIdx
      rw [dif_neg (show ¬(0 : Fin S200x10000.rank) ∈ dot_S200x10000_S10000x128_S200x128_1_0_0_1_n_n.lhsBatch by decide), dif_pos (show (0 : Fin S200x10000.rank) ∈ dot_S200x10000_S10000x128_S200x128_1_0_0_1_n_n.lhsNonContracting by decide)]
      rfl
    | ⟨1, _⟩ => exact (dot_S200x10000_S10000x128_S200x128_1_0_0_1_n_n.lhsIdx_val_of_single rfl j _).trans hk)
  have er : dot_S200x10000_S10000x128_S200x128_1_0_0_1_n_n.rhsIdx j ((ValueIdx.contrEquiv1 dot_S200x10000_S10000x128_S200x128_1_0_0_1_n_n 10000 rfl rfl).symm k) = rgt j k := funext fun a => Fin.ext (by
    match a with
    | ⟨0, _⟩ => exact (dot_S200x10000_S10000x128_S200x128_1_0_0_1_n_n.rhsIdx_val_of_single rfl j _).trans hk
    | ⟨1, _⟩ =>
      show (dot_S200x10000_S10000x128_S200x128_1_0_0_1_n_n.rhsIdx j _ 1).val = (j 1).val
      unfold DotDims.rhsIdx
      rw [dif_neg (show ¬(1 : Fin S10000x128.rank) ∈ dot_S200x10000_S10000x128_S200x128_1_0_0_1_n_n.rhsBatch by decide), dif_pos (show (1 : Fin S10000x128.rank) ∈ dot_S200x10000_S10000x128_S200x128_1_0_0_1_n_n.rhsNonContracting by decide)]
      rfl)
  rw [el, er]

/-- The rectified block times W2 into a zero accumulator, at an entry. -/
theorem mm_hw (l : FVec Ideal S200x128 .f32) (r : FVec Ideal S128x128 .f32) (j : S200x128.Idx) :
    matmul dot_S200x128_S128x128_S200x128_1_0_0_1_n_n none l r (constant (F := Ideal) S200x128 .f32 0x00000000#32) j
      = ∑ k : Fin 128, l (lft j k) * r (rgt j k) := by
  refine (Ideal.matmul_constant_zero_apply dot_S200x128_S128x128_S200x128_1_0_0_1_n_n none l r j).trans ?_
  rw [← Equiv.sum_comp (ValueIdx.contrEquiv1 dot_S200x128_S128x128_S200x128_1_0_0_1_n_n 128 rfl rfl).symm]
  refine Finset.sum_congr rfl fun k _ => ?_
  have hk := ValueIdx.contrEquiv1_symm_val dot_S200x128_S128x128_S200x128_1_0_0_1_n_n 128 rfl rfl k
  have el : dot_S200x128_S128x128_S200x128_1_0_0_1_n_n.lhsIdx j ((ValueIdx.contrEquiv1 dot_S200x128_S128x128_S200x128_1_0_0_1_n_n 128 rfl rfl).symm k) = lft j k := funext fun a => Fin.ext (by
    match a with
    | ⟨0, _⟩ =>
      show (dot_S200x128_S128x128_S200x128_1_0_0_1_n_n.lhsIdx j _ 0).val = (j 0).val
      unfold DotDims.lhsIdx
      rw [dif_neg (show ¬(0 : Fin S200x128.rank) ∈ dot_S200x128_S128x128_S200x128_1_0_0_1_n_n.lhsBatch by decide), dif_pos (show (0 : Fin S200x128.rank) ∈ dot_S200x128_S128x128_S200x128_1_0_0_1_n_n.lhsNonContracting by decide)]
      rfl
    | ⟨1, _⟩ => exact (dot_S200x128_S128x128_S200x128_1_0_0_1_n_n.lhsIdx_val_of_single rfl j _).trans hk)
  have er : dot_S200x128_S128x128_S200x128_1_0_0_1_n_n.rhsIdx j ((ValueIdx.contrEquiv1 dot_S200x128_S128x128_S200x128_1_0_0_1_n_n 128 rfl rfl).symm k) = rgt j k := funext fun a => Fin.ext (by
    match a with
    | ⟨0, _⟩ => exact (dot_S200x128_S128x128_S200x128_1_0_0_1_n_n.rhsIdx_val_of_single rfl j _).trans hk
    | ⟨1, _⟩ =>
      show (dot_S200x128_S128x128_S200x128_1_0_0_1_n_n.rhsIdx j _ 1).val = (j 1).val
      unfold DotDims.rhsIdx
      rw [dif_neg (show ¬(1 : Fin S128x128.rank) ∈ dot_S200x128_S128x128_S200x128_1_0_0_1_n_n.rhsBatch by decide), dif_pos (show (1 : Fin S128x128.rank) ∈ dot_S200x128_S128x128_S200x128_1_0_0_1_n_n.rhsNonContracting by decide)]
      rfl)
  rw [el, er]

/-- The bias row broadcast over 200 rows, at an entry: the row's entry in that column. -/
theorem bias_apply (b : FVec Ideal S1x128 .f32) (j : S200x128.Idx) :
    broadcastTo S200x128 (shapeCast S1x128 b shapeCasts_S1x128_S1x128) broadcasts_S1x128_S200x128 j = b (ix2 (0 : Fin 1) (j 1)) := by
  rw [shapeCast_self]
  refine broadcastTo_apply b broadcasts_S1x128_S200x128 j (ix2 (0 : Fin 1) (j 1)) fun a => ?_
  match a with
  | ⟨0, _⟩ => show 0 = if (1 : Nat) = 1 then 0 else (j 0).val; rw [if_pos rfl]
  | ⟨1, _⟩ => show (j 1).val = if (128 : Nat) = 1 then 0 else (j 1).val; rw [if_neg (by decide)]

/-- The first payload at an entry. -/
theorem pay1_apply (x : Vec Ideal S10000x512 .f32) (w : Vec Ideal S512x128 .f32) (i : S10000x128.Idx)
    (X' W' : Fin 512 → EReal) (hx : ∀ d, x (lft i d) = X' d) (hw : ∀ d, w (rgt i d) = W' d) :
    k0_pay1 (F := Ideal) x w i = ∑ d : Fin 512, X' d * W' d := by
  unfold k0_pay1
  rw [shapeCast_self, mm_xw]
  exact Finset.sum_congr rfl fun d _ => by rw [hx d, hw d]

/-- The second payload at an entry. -/
theorem pay2_apply (a : Vec Ideal S200x10000 .f32) (z : Vec Ideal S10000x128 .f32) (b : Vec Ideal S1x128 .f32) (w : Vec Ideal S128x128 .f32)
    (y : S200x128.Idx) (A' Z' : Fin 128 → Fin 10000 → EReal) (b' W' : Fin 128 → EReal)
    (ha : ∀ j l, a (ix2 (y 0) l) = A' j l) (hz : ∀ j l, z (ix2 l j) = Z' j l) (hb : ∀ j, b (ix2 (0 : Fin 1) j) = b' j)
    (hw : ∀ j, w (ix2 j (y 1)) = W' j) :
    k0_pay2 (F := Ideal) a z b w y
      = ∑ j : Fin 128, max ((∑ l : Fin 10000, A' j l * Z' j l) + b' j) (Ideal.ofBits .f32 0x00000000#32) * W' j := by
  unfold k0_pay2
  rw [shapeCast_self, mm_hw]
  refine Finset.sum_congr rfl fun j _ => ?_
  rw [hw j]
  refine congrArg (· * W' j) ?_
  show max (matmul dot_S200x10000_S10000x128_S200x128_1_0_0_1_n_n none a z (constant (F := Ideal) S200x128 .f32 0x00000000#32) (lft y j)
      + broadcastTo S200x128 (shapeCast S1x128 b shapeCasts_S1x128_S1x128) broadcasts_S1x128_S200x128 (lft y j)) (Ideal.ofBits .f32 0x00000000#32) = _
  rw [mm_az, bias_apply]
  refine congrArg₂ max (congrArg₂ (· + ·) (Finset.sum_congr rfl fun l _ => ?_) (hb j)) rfl
  rw [← ha j l, ← hz j l]

/-- The third payload at an entry. -/
theorem pay3_apply (a : Vec Ideal S200x10000 .f32) (g : Vec Ideal S10000x128 .f32) (b : Vec Ideal S1x128 .f32) (y : S200x128.Idx)
    (A' G' : Fin 10000 → EReal) (b' : EReal) (ha : ∀ k, a (ix2 (y 0) k) = A' k) (hg : ∀ k, g (ix2 k (y 1)) = G' k)
    (hb : b (ix2 (0 : Fin 1) (y 1)) = b') :
    k0_pay3 (F := Ideal) a g b y = (∑ k : Fin 10000, A' k * G' k) + b' := by
  unfold k0_pay3
  show matmul dot_S200x10000_S10000x128_S200x128_1_0_0_1_n_n none a g (constant (F := Ideal) S200x128 .f32 0x00000000#32) y
      + broadcastTo S200x128 (shapeCast S1x128 b shapeCasts_S1x128_S1x128) broadcasts_S1x128_S200x128 y = _
  rw [mm_az, bias_apply, hb]
  refine congrArg (· + b') (Finset.sum_congr rfl fun k _ => ?_)
  rw [← ha k, ← hg k]

end Cert.KernelIdeal.Payload

end
-- ==== Proof.Bridge.lean ====
import proofs.«162649_g34110630265430_cont_sun_c4_604_4_alg».proof.Proof.KernelIdeal.Blocks
import proofs.«162649_g34110630265430_cont_sun_c4_604_4_alg».proof.Proof.Payload
import proofs.«162649_g34110630265430_cont_sun_c4_604_4_alg».proof.Proof.Gen.ReferenceIdeal.Read

set_option maxRecDepth 16384

noncomputable section

/-! The kernel's result array is the reference's result, over the extended reals.

Write X, A, W1, b1, W2, b2 for the six argument arrays. The reference computes, stage by stage,
  v0 = X · W1,  v5 = max (A · v0 + b1) 0,  v6 = v5 · W2,  v10 = A · v6 + b2.
The kernel's first scratch holds v0 (one matrix product, the same sum over the 512 columns of X). Row r of the assembled
second scratch is row r mod 200 of what first-sweep point r / 200 computes from adjacency rows 200 · (r / 200) …, that is
from row r of A: so the second scratch is v6, entry by entry (the same sums over 10000 and over 128, the same maximum with
zero). A second-sweep point t leaves A-rows-block (t − 50) · v6 + b2 in the result's buffer, which is rows
200 · (t − 50) … of v10; these 50 blocks tile the array and each is written back once. No law of the extended reals beyond
reading the products as sums is used: both programs compute the same expression in the same association. -/

namespace Cert.KernelIdeal.Bridge

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Body Cert.KernelIdeal.Payload
open scoped BigOperators

variable (m : (ℓ : Loc nD τ sig) → Buf (Elt Ideal) ℓ) (ρ : Dev nD → PrngReg)

/-- The argument arrays on core `c`. -/
abbrev aX (c : Dev nD) : S10000x512.Idx → EReal := m ((c : Thread nD τ).loc main_arg0)
abbrev aA (c : Dev nD) : S10000x10000.Idx → EReal := m ((c : Thread nD τ).loc main_arg1)
abbrev aW1 (c : Dev nD) : S512x128.Idx → EReal := m ((c : Thread nD τ).loc main_arg2)
abbrev ab1 (c : Dev nD) : S128.Idx → EReal := m ((c : Thread nD τ).loc main_arg3)
abbrev aW2 (c : Dev nD) : S128x128.Idx → EReal := m ((c : Thread nD τ).loc main_arg4)
abbrev ab2 (c : Dev nD) : S128.Idx → EReal := m ((c : Thread nD τ).loc main_arg5)

/-- The reference's stages at the kernel's argument arrays. -/
abbrev rZ (c : Dev nD) : S10000x128.Idx → EReal := Cert.ReferenceIdeal.Read.val_main_v0 (F := Ideal) (aX m c) (aW1 m c)
abbrev rG (c : Dev nD) : S10000x128.Idx → EReal := Cert.ReferenceIdeal.Read.val_main_v6 (F := Ideal) (aX m c) (aA m c) (aW1 m c) (ab1 m c) (aW2 m c)
abbrev rOut (c : Dev nD) : S10000x128.Idx → EReal := Cert.ReferenceIdeal.Read.val_main_v10 (F := Ideal) (aX m c) (aA m c) (aW1 m c) (ab1 m c) (aW2 m c) (ab2 m c)

/-- Two indices of a matrix with equal coordinates are equal. -/
theorem idx2_ext {n0 n1 : Nat} (i k : (⟨2, ![n0, n1]⟩ : Shape).Idx) (h0 : (i 0).val = (k 0).val) (h1 : (i 1).val = (k 1).val) : i = k :=
  funext fun a => Fin.ext (by match a with | ⟨0, _⟩ => exact h0 | ⟨1, _⟩ => exact h1)

/-- The first scratch is the reference's X · W1. -/
theorem z_eq (c : Dev nD) (i k : S10000x128.Idx) (h0 : (i 0).val = (k 0).val) (h1 : (i 1).val = (k 1).val) :
    zOf m c i = rZ m c k := by
  obtain rfl := idx2_ext i k h0 h1
  unfold zOf rZ
  rw [Cert.ReferenceIdeal.Read.val_main_v0_apply]
  exact pay1_apply _ _ i (fun d => aX m c (Cert.ReferenceIdeal.Read.lidx_main_v0 i d)) (fun d => aW1 m c (Cert.ReferenceIdeal.Read.ridx_main_v0 i d))
    (fun d => blk_x m c t0 _ _ rfl rfl) (fun d => blk_w1 m c t0 _ _ rfl rfl)

/-- The assembled second scratch is the reference's max (A · v0 + b1) 0 · W2: row r comes from first-sweep point r / 200,
    whose adjacency block's row r mod 200 is row r of A. -/
theorem g_eq (c : Dev nD) (j k : S10000x128.Idx) (h0 : (j 0).val = (k 0).val) (h1 : (j 1).val = (k 1).val) :
    gFull m c j = rG m c k := by
  obtain rfl := idx2_ext j k h0 h1
  have hj : (j 0).val < 10000 := idx2_lt0 j
  unfold gFull sliceOf rG
  rw [Cert.ReferenceIdeal.Read.val_main_v6_apply]
  refine (pay2_apply _ _ _ _ (rowIn j)
    (fun q l => aA m c (Cert.ReferenceIdeal.Read.lidx_main_v1 (Cert.ReferenceIdeal.Read.lidx_main_v6 j q) l))
    (fun q l => rZ m c (Cert.ReferenceIdeal.Read.ridx_main_v1 (Cert.ReferenceIdeal.Read.lidx_main_v6 j q) l))
    (fun q => ab1 m c (Cert.ReferenceIdeal.Read.idx_main_v2 (Cert.ReferenceIdeal.Read.idx_main_v3 (Cert.ReferenceIdeal.Read.lidx_main_v6 j q))))
    (fun q => aW2 m c (Cert.ReferenceIdeal.Read.ridx_main_v6 j q))
    (fun q l => blk_adj m c (blockOfRow j) _ _
      (by show (j 0).val = 200 * ((j 0).val / 200 % 50) + (j 0).val % 200; omega) rfl)
    (fun q l => z_eq m c _ _ rfl rfl)
    (fun q => blk_b1 m c (blockOfRow j) _ _ rfl)
    (fun q => blk_w2 m c (blockOfRow j) _ _ rfl rfl)).trans ?_
  refine Finset.sum_congr rfl fun q _ => ?_
  rw [Cert.ReferenceIdeal.Read.val_main_v5_apply, Cert.ReferenceIdeal.Read.val_main_v4_apply, Cert.ReferenceIdeal.Read.val_main_v1_apply, Cert.ReferenceIdeal.Read.val_main_v3_apply, Cert.ReferenceIdeal.Read.val_main_v2_apply,
    Cert.ReferenceIdeal.Read.val_main_call0_v0_apply, Cert.ReferenceIdeal.Read.val_main_call0_cst_apply]
  rfl

/-- What a second-sweep point leaves in the result's buffer is its 200 rows of the reference's result. -/
theorem out_eq (c : Dev nD) (t : Fin cfg0.N) (h2 : 50 ≤ t.val) (y : S200x128.Idx) (i : S10000x128.Idx)
    (h0 : (i 0).val = 200 * (t.val - 50) + (y 0).val) (h1 : (i 1).val = (y 1).val) :
    k0_pay3 (F := Ideal) (iblk m c 1 t) (gFull m c) (iblk m c 5 t) y = rOut m c i := by
  have hN : t.val < 100 := lt_of_lt_of_eq t.isLt N_eq
  unfold rOut
  rw [Cert.ReferenceIdeal.Read.val_main_v10_apply, Cert.ReferenceIdeal.Read.val_main_v7_apply, Cert.ReferenceIdeal.Read.val_main_v9_apply, Cert.ReferenceIdeal.Read.val_main_v8_apply]
  exact pay3_apply _ _ _ y (fun k => aA m c (Cert.ReferenceIdeal.Read.lidx_main_v7 i k)) (fun k => rG m c (Cert.ReferenceIdeal.Read.ridx_main_v7 i k))
    (ab2 m c (Cert.ReferenceIdeal.Read.idx_main_v8 (Cert.ReferenceIdeal.Read.idx_main_v9 i)))
    (fun k => blk_adj m c t _ _ (by show (i 0).val = 200 * (t.val % 50) + (y 0).val; omega) rfl)
    (fun k => g_eq m c _ _ rfl h1.symm)
    (blk_b2 m c t _ _ h1)

/-- Each write-back of the result's window writes its block of the reference's result. -/
theorem flushed_eq (c : Dev nD) (t : Fin cfg0.N) (hf : (cfg0.win 6).flush t = true) :
    (dats m 0 c).flushed 6 t = ((cfg0.win 6).blk t).view.read (Elt Ideal) (rOut m c) := by
  have h2 : 50 ≤ t.val := by rw [flush_6 t] at hf; exact of_decide_eq_true hf
  funext y
  show (dats m 0 c).after 6 t y = _
  rw [after_6, View.read_apply]
  refine out_eq m c t h2 y _ ?_ ?_
  · show win0_6.index t 0 * 200 + 1 * (y 0).val = _; rw [(index_6 t h2).1]; omega
  · show win0_6.index t 1 * 128 + 1 * (y 1).val = _; rw [(index_6 t h2).2]; omega

/-- The 50 blocks written back tile the result: row r lies in the block of point 50 + r / 200. -/
theorem covered (c : Dev nD) (i : ((cfg0.win 6).arr.view.loc (c.tc : Thread nD τ)).2.ty.Idx) :
    ∃ t : Fin cfg0.N, (cfg0.win 6).flush t = true ∧ i ∈ ((cfg0.win 6).blk t).view.set := by
  have h0 : (i 0 : Nat) < 10000 := (i 0).isLt
  have h1 : (i 1 : Nat) < 128 := (i 1).isLt
  have ht : 50 + (i 0 : Nat) / 200 < cfg0.N := by rw [N_eq]; omega
  refine ⟨⟨50 + (i 0 : Nat) / 200, ht⟩, by rw [flush_6]; exact decide_eq_true (by show 50 ≤ 50 + (i 0 : Nat) / 200; omega), ?_⟩
  show i ∈ ((View.whole main_v2).slice (win0_6.rect ⟨50 + (i 0 : Nat) / 200, ht⟩)).set
  rw [View.set_slice_whole, Rect.mem_set_unit]
  intro a
  have hi := index_6 ⟨50 + (i 0 : Nat) / 200, ht⟩ (by show 50 ≤ 50 + (i 0 : Nat) / 200; omega)
  match a with
  | ⟨0, _⟩ =>
    show win0_6.index ⟨50 + (i 0 : Nat) / 200, ht⟩ 0 * 200 ≤ (i 0 : Nat) ∧ (i 0 : Nat) < win0_6.index ⟨50 + (i 0 : Nat) / 200, ht⟩ 0 * 200 + 200
    rw [hi.1]; show (50 + (i 0 : Nat) / 200 - 50) * 200 ≤ (i 0 : Nat) ∧ (i 0 : Nat) < (50 + (i 0 : Nat) / 200 - 50) * 200 + 200; omega
  | ⟨1, _⟩ =>
    show win0_6.index ⟨50 + (i 0 : Nat) / 200, ht⟩ 1 * 128 ≤ (i 1 : Nat) ∧ (i 1 : Nat) < win0_6.index ⟨50 + (i 0 : Nat) / 200, ht⟩ 1 * 128 + 128
    rw [hi.2]; omega

/-- So the result array ends at the reference's result. -/
theorem final_out (c : Dev nD) : (dats m 0 c).arrAt 6 cfg0.N = rOut m c :=
  (dats m 0 c).arrAt_eq_of_cover 6 (rOut m c) (flushed_eq m c) (covered c)

/-- The kernel's run, read: the result at the reference's expression of the argument arrays, the arguments unchanged. -/
theorem run : θ_run defs (onTc (τ := τ) (main (F := Ideal))) ⟨m, fun _ => 0, ρ⟩ fun r => ∀ c : Dev nD,
      r.2.mem ((c.tc : Thread nD τ).loc main_v2) = rOut m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨((h c).1 6).trans (final_out m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c),
      ((h c).1 4).trans (((dats m 0 c).arrAt_in 4 rfl _).trans ((A_eq m c 4).trans (V_main_arg4 m c))),
      ((h c).2 main_arg5 (Pipeline.mem_restRefs_of main_arg5 (by decide) (by decide))).trans (V_main_arg5 m c)⟩)
    (run_main m ρ)

end Cert.KernelIdeal.Bridge

end
-- ==== Proof.lean ====
/- Two-layer graph convolution with a dense adjacency, out = A · (max (A · (X · W1) + b1) 0 · W2) + b2: the Pallas kernel
   against the jnp reference, over the extended reals.

   The kernel runs one region over a 2 × 50 grid. Point 0 computes z = X · W1 into a scratch array. Each point s of the
   first sweep computes 200 rows of g = max (A · z + b1) 0 · W2 from 200 rows of A and stores them into a second scratch
   array; each point of the second sweep multiplies 200 rows of A by the finished g, adds b2 and writes those 200 rows of
   the result. The reference is the same expression, in the same association, on whole arrays.

   Frames (both instances of the kernel, one generic proof each): the body is run in its three cases (first point, rest of
   the first sweep, second sweep); between points the invariant keeps z exact and g correct on the row blocks stored so
   far; the result's window rests through the first sweep. The reference's frame is its generated run.
   Value: the result array is assembled from the 50 blocks written back, each equal to its rows of the reference's last
   stage, because z and g are, entry by entry, the reference's stages v0 and v6 — matrix products read as sums over the
   same index sets. No precondition is used: no step needs finiteness. -/
import proofs.«162649_g34110630265430_cont_sun_c4_604_4_alg».proof.Defs
import proofs.«162649_g34110630265430_cont_sun_c4_604_4_alg».proof.Proof.Gen.Kernel
import proofs.«162649_g34110630265430_cont_sun_c4_604_4_alg».proof.Proof.Gen.KernelIdeal
import proofs.«162649_g34110630265430_cont_sun_c4_604_4_alg».proof.Proof.Gen.ReferenceIdeal
import proofs.«162649_g34110630265430_cont_sun_c4_604_4_alg».proof.Proof.Gen.Pre_finite_inputs
import proofs.«162649_g34110630265430_cont_sun_c4_604_4_alg».proof.Proof.Kernel.Body
import proofs.«162649_g34110630265430_cont_sun_c4_604_4_alg».proof.Proof.Bridge
import Idealize.ShloMosaic.Adequacy
import Idealize.ShloMosaic.Init

noncomputable section

namespace Cert.Proof

open Idealize.ShloMosaic Idealize.SL.Sem

/-- The word-level kernel terminates and leaves its arguments unchanged. -/
theorem frame_kernel : Cert.frame_Kernel := fun m ρ _ => Cert.Kernel.Body.frame m ρ

/-- So does the kernel read over the extended reals. -/
theorem frame_kernelIdeal : Cert.frame_KernelIdeal := fun m ρ _ => Cert.KernelIdeal.Body.frame m ρ

/-- The reference is a straight line of host operations: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the arguments both programs end with the result at the reference's last stage of those
    arguments: the kernel by the bridge, the reference by its run. -/
theorem algebraic : Cert.algebraic_KernelIdeal_ReferenceIdeal := by
  intro m ρ m' ρ' _ hagree
  refine ⟨fun c => Cert.KernelIdeal.Bridge.rOut m c, Cert.KernelIdeal.Bridge.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5⟩ := hagree c
  rw [e0, e1, e2, e3, e4, e5]
  exact Cert.ReferenceIdeal.Read.val_main_v10_eq _ _ _ _ _ _

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
